-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192 : Shape := ⟨1, ![8192]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel

variable [Facts]

def fn {F : FTy → Type} [FloatOps F] (main_arg0 : FVec F S8192x128 .f32) (main_arg1 : IVec S8192 32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  main_v3
-- ==== Kernel.lean ====
abbrev S8192x128 : Shape := ⟨2, ![8192, 128]⟩
abbrev S8192 : Shape := ⟨1, ![8192]⟩
abbrev S3 : Shape := ⟨1, ![3]⟩
abbrev S_ : Shape := ⟨0, ![]⟩
abbrev S8192x1 : Shape := ⟨2, ![8192, 1]⟩
abbrev S1x8192 : Shape := ⟨2, ![1, 8192]⟩
abbrev S128x128 : Shape := ⟨2, ![128, 128]⟩
abbrev S128x1 : Shape := ⟨2, ![128, 1]⟩
abbrev S1x128 : Shape := ⟨2, ![1, 128]⟩
abbrev S128x8192 : Shape := ⟨2, ![128, 8192]⟩
abbrev S128 : Shape := ⟨1, ![128]⟩

abbrev nBuf : Space → Nat
  | .hbm => 29
  | .vmem => 12
  | .smem => 0
  | _ => 0

abbrev bufTy : (tb : Table) → Fin (tcTables nBuf tb) → BufTy
  | .hbm, ⟨0, _⟩ => ⟨S8192x128, .f32⟩
  | .hbm, ⟨1, _⟩ => ⟨S8192, .i32⟩
  | .hbm, ⟨2, _⟩ => ⟨S3, .f32⟩
  | .hbm, ⟨3, _⟩ => ⟨S_, .i32⟩
  | .hbm, ⟨4, _⟩ => ⟨S8192, .i32⟩
  | .hbm, ⟨5, _⟩ => ⟨S8192, .i1⟩
  | .hbm, ⟨6, _⟩ => ⟨S_, .i32⟩
  | .hbm, ⟨7, _⟩ => ⟨S8192, .i32⟩
  | .hbm, ⟨8, _⟩ => ⟨S8192, .i32⟩
  | .hbm, ⟨9, _⟩ => ⟨S8192, .i32⟩
  | .hbm, ⟨10, _⟩ => ⟨S8192x1, .i32⟩
  | .hbm, ⟨11, _⟩ => ⟨S8192, .f32⟩
  | .hbm, ⟨12, _⟩ => ⟨S8192x1, .i32⟩
  | .hbm, ⟨13, _⟩ => ⟨S1x8192, .i32⟩
  | .hbm, ⟨14, _⟩ => ⟨S8192x1, .f32⟩
  | .hbm, ⟨15, _⟩ => ⟨S1x8192, .f32⟩
  | .hbm, ⟨16, _⟩ => ⟨S1x8192, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .i1⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .local _ .vmem, ⟨0, _⟩ => ⟨S128x128, .f32⟩
  | .local _ .vmem, ⟨1, _⟩ => ⟨S128x128, .f32⟩
  | .local _ .vmem, ⟨2, _⟩ => ⟨S8192x128, .f32⟩
  | .local _ .vmem, ⟨3, _⟩ => ⟨S128x1, .i32⟩
  | .local _ .vmem, ⟨4, _⟩ => ⟨S128x1, .i32⟩
  | .local _ .vmem, ⟨5, _⟩ => ⟨S1x8192, .i32⟩
  | .local _ .vmem, ⟨6, _⟩ => ⟨S128x1, .f32⟩
  | .local _ .vmem, ⟨7, _⟩ => ⟨S128x1, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10_0 : Ref sig .tc := ⟨.hbm, 15, rfl⟩
abbrev main_v10_1 : Ref sig .tc := ⟨.hbm, 16, rfl⟩
abbrev main_cst_1 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_call0_v0 : Ref sig .tc := ⟨.hbm, 27, rfl⟩
abbrev main_v16 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x8192 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  shapeCasts_S8192_S8192x1 : S8192.ShapeCasts S8192x1
  shapeCasts_S8192_S1x8192 : S8192.ShapeCasts S1x8192
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  inb_S8192x128_S8192x128_0_0 : ∀ a, (![0, 0] : Fin 2 → Nat) a + S8192x128.size a ≤ S8192x128.size a
  h_S8192x128 : 0 < S8192x128.numel
  transposes_S8192x128_p1_0_S128x8192 : S8192x128.Transposes [1, 0] S128x8192
  inb_S128x1_S128x1_0_0 : ∀ a, (![0, 0] : Fin 2 → Nat) a + S128x1.size a ≤ S128x1.size a
  h_S128x1 : 0 < S128x1.numel
  shapeCasts_S128x1_S128x1 : S128x1.ShapeCasts S128x1
  broadcasts_S128x1_S128x8192 : S128x1.Broadcasts S128x8192
  reduces_S128x8192_S128 : S128x8192.Reduces [1] S128
  shapeCasts_S128_S128x1 : S128.ShapeCasts S128x1
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  broadcasts_S1x8192_S128x8192 : S1x8192.Broadcasts S128x8192
  natLt_1_32 : 1 < 32
  iota_S128x1_d0_w32 : S128x1.Iotas .tc 32 [0]
  iota_S1x8192_d1_w32 : S1x8192.Iotas .tc 32 [1]
  transposes_S128x1_p1_0_S1x128 : S128x1.Transposes [1, 0] S1x128
  inb_S1x128_S1x128_0_0 : ∀ a, (![0, 0] : Fin 2 → Nat) a + S1x128.size a ≤ S1x128.size a
  h_S1x128 : 0 < S1x128.numel
  reducesTo_S1x8192_S_d0_1 : S1x8192.ReducesTo [0, 1] S_
  h_S_ : 0 < S_.numel
  gather_S3_S8192x1_S8192_n_0_n_n_0_1_1_wf : GatherDims.WF S3 S8192x1 S8192 [] [0] [] [0] [] 1 ![1]
  dot_S128x128_S128x8192_S128x8192_1_0_0_1_n_n_wf : DotDims.WF S128x128 S128x8192 S128x8192 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x128.size a ≤ S8192x128.size a
  hwx0_0 : ∀ i : grid0.Coords, EltTy.bits .f32 = 32 ∨ (Rect.block (s := S8192x128) S128x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S8192x128.size a
  hwx0_1 : ∀ i : grid0.Coords, EltTy.bits .f32 = 32 ∨ (Rect.block (s := S8192x128) S8192x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1.size a ≤ S8192x1.size a
  hwx0_2 : ∀ i : grid0.Coords, EltTy.bits .i32 = 32 ∨ (Rect.block (s := S8192x1) S128x1.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x8192.size a ≤ S1x8192.size a
  hwx0_3 : ∀ i : grid0.Coords, EltTy.bits .i32 = 32 ∨ (Rect.block (s := S1x8192) S1x8192.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x1.size a ≤ S8192x1.size a
  hwx0_4 : ∀ i : grid0.Coords, EltTy.bits .f32 = 32 ∨ (Rect.block (s := S8192x1) S128x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x8192.size a
  hwx0_5 : ∀ i : grid0.Coords, EltTy.bits .f32 = 32 ∨ (Rect.block (s := S1x8192) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x8192.size a
  hwx0_6 : ∀ i : grid0.Coords, EltTy.bits .f32 = 32 ∨ (Rect.block (s := S1x8192) S1x128.size (cc0_transform_6 i) (hinb0_6 i)).WholeWords (EltTy.packing .f32)

variable [Facts₀]

def gather_S3_S8192x1_S8192_n_0_n_n_0_1_1 : GatherDims S3 S8192x1 S8192 where
  offsetDims := []
  collapsedSliceDims := [0]
  operandBatchingDims := []
  startIndicesBatchingDims := []
  startIndexMap := [0]
  indexVectorDim := 1
  sliceSizes := ![1]
  wf := gather_S3_S8192x1_S8192_n_0_n_n_0_1_1_wf
def dot_S128x128_S128x8192_S128x8192_1_0_0_1_n_n : DotDims S128x128 S128x8192 S128x8192 where
  lhsContracting := [1]
  rhsContracting := [0]
  lhsNonContracting := [0]
  rhsNonContracting := [1]
  lhsBatch := []
  rhsBatch := []
  wf := dot_S128x128_S128x8192_S128x8192_1_0_0_1_n_n_wf

abbrev win0_0 : Pipeline.Window sig grid0 :=
  Pipeline.Window.ofSpec (Memref.whole main_arg0) S128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S8192x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S128x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1x8192.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S128x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v10_0) S1x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v10_1) S1x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8192x128 : Shape := ⟨2, ![8192, 128]⟩
abbrev S8192 : Shape := ⟨1, ![8192]⟩
abbrev S3 : Shape := ⟨1, ![3]⟩
abbrev S_ : Shape := ⟨0, ![]⟩
abbrev S8192x1 : Shape := ⟨2, ![8192, 1]⟩
abbrev S128x8192 : Shape := ⟨2, ![128, 8192]⟩
abbrev S8192x8192 : Shape := ⟨2, ![8192, 8192]⟩
abbrev S1x8192 : Shape := ⟨2, ![1, 8192]⟩

abbrev nBuf : Space → Nat
  | .hbm => 83
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192, .i32⟩
  | .hbm, ⟨2, _⟩ => ⟨S3, .f32⟩
  | .hbm, ⟨3, _⟩ => ⟨S_, .i32⟩
  | .hbm, ⟨4, _⟩ => ⟨S8192, .i32⟩
  | .hbm, ⟨5, _⟩ => ⟨S8192, .i1⟩
  | .hbm, ⟨6, _⟩ => ⟨S_, .i32⟩
  | .hbm, ⟨7, _⟩ => ⟨S8192, .i32⟩
  | .hbm, ⟨8, _⟩ => ⟨S8192, .i32⟩
  | .hbm, ⟨9, _⟩ => ⟨S8192, .i32⟩
  | .hbm, ⟨10, _⟩ => ⟨S8192x1, .i32⟩
  | .hbm, ⟨11, _⟩ => ⟨S8192, .f32⟩
  | .hbm, ⟨12, _⟩ => ⟨S128x8192, .f32⟩
  | .hbm, ⟨13, _⟩ => ⟨S8192x8192, .f32⟩
  | .hbm, ⟨14, _⟩ => ⟨S8192x1, .f32⟩
  | .hbm, ⟨15, _⟩ => ⟨S8192x8192, .f32⟩
  | .hbm, ⟨16, _⟩ => ⟨S8192x8192, .f32⟩
  | .hbm, ⟨17, _⟩ => ⟨S_, .f32⟩
  | .hbm, ⟨18, _⟩ => ⟨S8192, .f32⟩
  | .hbm, ⟨19, _⟩ => ⟨S8192x1, .f32⟩
  | .hbm, ⟨20, _⟩ => ⟨S8192x8192, .f32⟩
  | .hbm, ⟨21, _⟩ => ⟨S8192x8192, .f32⟩
  | .hbm, ⟨22, _⟩ => ⟨S8192x8192, .f32⟩
  | .hbm, ⟨23, _⟩ => ⟨S_, .f32⟩
  | .hbm, ⟨24, _⟩ => ⟨S8192, .f32⟩
  | .hbm, ⟨25, _⟩ => ⟨S8192x1, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S8192x1, .f32⟩
  | .hbm, ⟨30, _⟩ => ⟨S8192x8192, .f32⟩
  | .hbm, ⟨31, _⟩ => ⟨S8192x8192, .f32⟩
  | .hbm, ⟨32, _⟩ => ⟨S8192x1, .i32⟩
  | .hbm, ⟨33, _⟩ => ⟨S1x8192, .i32⟩
  | .hbm, ⟨34, _⟩ => ⟨S8192x8192, .i32⟩
  | .hbm, ⟨35, _⟩ => ⟨S8192x8192, .i32⟩
  | .hbm, ⟨36, _⟩ => ⟨S8192x8192, .i1⟩
  | .hbm, ⟨37, _⟩ => ⟨S8192x8192, .f32⟩
  | .hbm, ⟨38, _⟩ => ⟨S8192x8192, .i32⟩
  | .hbm, ⟨39, _⟩ => ⟨S8192x8192, .i32⟩
  | .hbm, ⟨40, _⟩ => ⟨S_, .i32⟩
  | .hbm, ⟨41, _⟩ => ⟨S8192x8192, .i32⟩
  | .hbm, ⟨42, _⟩ => ⟨S8192x8192, .i32⟩
  | .hbm, ⟨43, _⟩ => ⟨S8192x8192, .i1⟩
  | .hbm, ⟨44, _⟩ => ⟨S8192x8192, .f32⟩
  | .hbm, ⟨45, _⟩ => ⟨S_, .f32⟩
  | .hbm, ⟨46, _⟩ => ⟨S8192x8192, .f32⟩
  | .hbm, ⟨47, _⟩ => ⟨S8192x8192, .f32⟩
  | .hbm, ⟨48, _⟩ => ⟨S8192x8192, .f32⟩
  | .hbm, ⟨49, _⟩ => ⟨S_, .f32⟩
  | .hbm, ⟨50, _⟩ => ⟨S8192, .f32⟩
  | .hbm, ⟨51, _⟩ => ⟨S_, .f32⟩
  | .hbm, ⟨52, _⟩ => ⟨S8192, .f32⟩
  | .hbm, ⟨53, _⟩ => ⟨S8192, .i1⟩
  | .hbm, ⟨54, _⟩ => ⟨S_, .f32⟩
  | .hbm, ⟨55, _⟩ => ⟨S8192, .f32⟩
  | .hbm, ⟨56, _⟩ => ⟨S8192, .f32⟩
  | .hbm, ⟨57, _⟩ => ⟨S8192, .f32⟩
  | .hbm, ⟨58, _⟩ => ⟨S8192x8192, .f32⟩
  | .hbm, ⟨59, _⟩ => ⟨S_, .f32⟩
  | .hbm, ⟨60, _⟩ => ⟨S8192, .f32⟩
  | .hbm, ⟨61, _⟩ => ⟨S8192, .f32⟩
  | .hbm, ⟨62, _⟩ => ⟨S_, .f32⟩
  | .hbm, ⟨63, _⟩ => ⟨S8192, .f32⟩
  | .hbm, ⟨64, _⟩ => ⟨S8192, .f32⟩
  | .hbm, ⟨65, _⟩ => ⟨S8192, .f32⟩
  | .hbm, ⟨66, _⟩ => ⟨S8192, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S8192, .f32⟩
  | .hbm, ⟨72, _⟩ => ⟨S8192, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .i1⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_c_4 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_cst_5 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_cst_6 : Ref sig .tc := ⟨.hbm, 49, rfl⟩
abbrev main_v39 : Ref sig .tc := ⟨.hbm, 50, rfl⟩
abbrev main_cst_7 : Ref sig .tc := ⟨.hbm, 51, rfl⟩
abbrev main_v40 : Ref sig .tc := ⟨.hbm, 52, rfl⟩
abbrev main_v41 : Ref sig .tc := ⟨.hbm, 53, rfl⟩
abbrev main_cst_8 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_9 : Ref sig .tc := ⟨.hbm, 59, rfl⟩
abbrev main_v46 : Ref sig .tc := ⟨.hbm, 60, rfl⟩
abbrev main_v47 : Ref sig .tc := ⟨.hbm, 61, rfl⟩
abbrev main_cst_10 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_cst_11 : Ref sig .tc := ⟨.hbm, 67, rfl⟩
abbrev main_v52 : Ref sig .tc := ⟨.hbm, 68, rfl⟩
abbrev main_cst_12 : Ref sig .tc := ⟨.hbm, 69, rfl⟩
abbrev main_call0_v0 : Ref sig .tc := ⟨.hbm, 70, rfl⟩
abbrev main_call0_v1 : Ref sig .tc := ⟨.hbm, 71, rfl⟩
abbrev main_v53 : Ref sig .tc := ⟨.hbm, 72, rfl⟩
abbrev main_cst_13 : Ref sig .tc := ⟨.hbm, 73, rfl⟩
abbrev main_v54 : Ref sig .tc := ⟨.hbm, 74, rfl⟩
abbrev main_cst_14 : Ref sig .tc := ⟨.hbm, 75, rfl⟩
abbrev main_v55 : Ref sig .tc := ⟨.hbm, 76, rfl⟩
abbrev main_cst_15 : Ref sig .tc := ⟨.hbm, 77, rfl⟩
abbrev main_v56 : Ref sig .tc := ⟨.hbm, 78, rfl⟩
abbrev main_v57 : Ref sig .tc := ⟨.hbm, 79, rfl⟩
abbrev main_cst_16 : Ref sig .tc := ⟨.hbm, 80, rfl⟩
abbrev main_call1_v0 : Ref sig .tc := ⟨.hbm, 81, rfl⟩
abbrev main_v58 : Ref sig .tc := ⟨.hbm, 82, rfl⟩

abbrev nD : Nat := 1
abbrev τ : Topo := Topo.v7x

variable {F : FTy → Type} [FloatOps F]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  transposes_S8192x128_S128x8192_1_0 : S8192x128.Transposes [1, 0] S128x8192
  bcast_S8192x1_S8192x8192_0_1 : S8192x1.BroadcastsInDim S8192x8192 (![0, 1] : Fin 2 → Fin S8192x8192.rank)
  reducesTo_S8192x8192_S8192_d1 : S8192x8192.ReducesTo [1] S8192
  h_S_ : 0 < S_.numel
  bcast_S_S8192x1 : S_.BroadcastsInDim S8192x1 (![] : Fin 0 → Fin S8192x1.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192_S_d0 : S8192.ReducesTo [0] S_
  gather_S3_S8192x1_S8192_n_0_n_n_0_1_1_wf : GatherDims.WF S3 S8192x1 S8192 [] [0] [] [0] [] 1 ![1]
  dot_S8192x128_S128x8192_S8192x8192_1_0_0_1_n_n_wf : DotDims.WF S8192x128 S128x8192 S8192x8192 [1] [0] [0] [1] [] []

variable [Facts₀]

def gather_S3_S8192x1_S8192_n_0_n_n_0_1_1 : GatherDims S3 S8192x1 S8192 where
  offsetDims := []
  collapsedSliceDims := [0]
  operandBatchingDims := []
  startIndicesBatchingDims := []
  startIndexMap := [0]
  indexVectorDim := 1
  sliceSizes := ![1]
  wf := gather_S3_S8192x1_S8192_n_0_n_n_0_1_1_wf
def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.BitsBody.lean ====
/-
  The kernel body of the contrastive-loss program, run on whole staging buffers.

  At one grid point the body reads five blocks — a 128-row block of the embeddings, the whole embedding array,
  the block's labels as a column, all labels as a row, the block's temperatures as a column — and overwrites
  two 1×128 output rows: the per-row loss and the per-row validity flag of the block's rows. Nothing else is
  touched. This module states that as a triple: the inputs are left as found, each output buffer ends holding
  the one value the body stores into it, a pure function of the five blocks and the point.
-/
import proofs.«149726_j26061861552544_1_alg».proof.Proof.Gen.Kernel.Launch
import proofs.«149726_j26061861552544_1_alg».proof.Proof.Gen.Kernel.Skeleton
import proofs.«149726_j26061861552544_1_alg».proof.Proof.Gen.Kernel.Points
import Idealize.ShloMosaic.Lib.Pipeline.FrameBody
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole-buffer rectangles the body reads and writes through. -/
abbrev rQ : Rect S128x128 := Rect.unit (s := S128x128) ![0, 0] S128x128.size inb_S128x128_S128x128_0_0
abbrev rE : Rect S8192x128 := Rect.unit (s := S8192x128) ![0, 0] S8192x128.size inb_S8192x128_S8192x128_0_0
abbrev rC : Rect S128x1 := Rect.unit (s := S128x1) ![0, 0] S128x1.size inb_S128x1_S128x1_0_0
abbrev rR : Rect S1x8192 := Rect.unit (s := S1x8192) ![0, 0] S1x8192.size inb_S1x8192_S1x8192_0_0
abbrev rO : Rect S1x128 := Rect.unit (s := S1x128) ![0, 0] S1x128.size inb_S1x128_S1x128_0_0

/-- The per-row losses of a block of rows, as a 1×128 row: the one value the body stores into its first output,
    written as the buffer's contents after that store. -/
def lossRowOf (i : grid0.Coords) (x0 : Vec F S128x128 .f32) (x1 : Vec F S8192x128 .f32) (x2 : Vec F S128x1 .i32)
    (x3 : Vec F S1x8192 .i32) (x4 : Vec F S128x1 .f32) : Vec F S1x128 .f32 :=
  View.canon [⟨rO, k0_pay3 (k0_pay5 (View.ld x4 rC)) (k0_pay6 (View.ld x0 rQ) (View.ld x1 rE) (View.ld x4 rC))
    (k0_pay7 i (View.ld x2 rC) (View.ld x3 rR)) (k0_pay8 i (View.ld x2 rC) (View.ld x3 rR))⟩]

/-- The per-row validity flags of the block, as a 1×128 row: the one value the body stores into its second output. -/
def validRowOf (i : grid0.Coords) (x2 : Vec F S128x1 .i32) (x3 : Vec F S1x8192 .i32) : Vec F S1x128 .f32 :=
  View.canon [⟨rO, k0_pay4 (k0_pay8 i (View.ld x2 rC) (View.ld x3 rR))⟩]

/-- One whole-buffer store covers the buffer. -/
theorem cover_out (p0 : Vec F S1x128 .f32) (y : S1x128.Idx) :
    ∃ pc ∈ ([⟨rO, p0⟩] : List (View.Piece (Elt F) S1x128 .f32)), y ∈ pc.1.set :=
  View.cover_of_tiled [⟨rO, p0⟩] S1x128.size (by rfl) y

set_option maxHeartbeats 4000000 in
/-- The body on whole staging memrefs: the five inputs at read contents are left as they were, and the two output
    rows, whatever they held, end at the loss row and the validity row of the blocks. -/
theorem sound_kernel (c : Dev nD) (E : Set ℕ) (i : grid0.Coords)
    (arg1 : Memref sig .tc .vmem S128x128 .f32) (harg1 : arg1.IsWhole) (arg2 : Memref sig .tc .vmem S8192x128 .f32) (harg2 : arg2.IsWhole)
    (arg3 : Memref sig .tc .vmem S128x1 .i32) (harg3 : arg3.IsWhole) (arg4 : Memref sig .tc .vmem S1x8192 .i32) (harg4 : arg4.IsWhole)
    (arg5 : Memref sig .tc .vmem S128x1 .f32) (harg5 : arg5.IsWhole) (arg6 : Memref sig .tc .vmem S1x128 .f32) (harg6 : arg6.IsWhole)
    (arg7 : Memref sig .tc .vmem S1x128 .f32) (harg7 : arg7.IsWhole)
    (x0 : Vec F S128x128 .f32) (x1 : Vec F S8192x128 .f32) (x2 : Vec F S128x1 .i32) (x3 : Vec F S1x8192 .i32) (x4 : Vec F S128x1 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (lossRowOf i x0 x1 x2 x3 x4) ∗ owns (c : Thread nD τ) arg7 fullShare (validRowOf i x2 x3)) -∗ K ⟨⟩))
      ⊢ wp frame (wpE (defs₀ (F := F)) Variants.none c none) E
          (cc0__kernel i arg1 harg1 arg2 harg2 arg3 harg3 arg4 harg4 arg5 harg5 arg6 harg6 arg7 harg7) K := by
  simp only [cc0__kernel_eq_skeleton]; unfold cc0__kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    try dsimp only
    exact View.read_writes_eq_canon _ _ _ (cover_out _)
  iexists _; isplitr
  swap; · iexact H6
  ipureintro
  try dsimp only
  exact View.read_writes_eq_canon _ _ _ (cover_out _)

end Cert.Kernel.Hand

end
-- ==== Proof.BitsDat.lean ====
/-
  The proof data of the one pipeline of the contrastive-loss program.

  The grid has 64 points, one per block of 128 rows. At point t the five input windows hold: rows 128t … 128t+127
  of the embeddings; the whole embedding array (a second window on the SAME array: the array's share is dealt in two
  halves, one per window); the block's labels; all labels; the block's temperatures. The two output windows end
  holding the block's loss row and validity row. Inputs are left in place by the body, so each is found at its
  block at every point, fetched there or not.
-/
import proofs.«149726_j26061861552544_1_alg».proof.Proof.BitsBody
import Idealize.ShloMosaic.Lib.Pipeline.Frame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's current staging buffer holds its block at every point, fetched there or not: the body leaves
    it in place, and an unfetched point has the previous point's block index. -/
theorem before_in0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4_of {c : Dev nD} (dat : Dat τ (Elt F) Unit ℕ (UR sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- The proof data on core `c`. The two windows on the embedding array hold complementary halves of its share. -/
def dat0 (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => lossRowOf (grid0.coords t) (iblk V c 0 t) (iblk V c 1 t) (iblk V c 2 t) (iblk V c 3 t) (iblk V c 4 t)
    | ⟨6, _⟩ => validRowOf (grid0.coords t) (iblk V c 2 t) (iblk V c 3 t)
  Φ _ := Pipeline.ΦA spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
  owed _ := 0

theorem A_eq (c : Dev nD) (w : Fin cfg0.W) : (dat0 V c).A w = V c (Pipeline.arrRef spec0 w) := by
  dsimp only [dat0]

theorem after0 (c : Dev nD) (t : Fin cfg0.N) : (dat0 V c).after 0 t = iblk V c 0 t := by dsimp only [dat0]
theorem after1 (c : Dev nD) (t : Fin cfg0.N) : (dat0 V c).after 1 t = iblk V c 1 t := by dsimp only [dat0]
theorem after2 (c : Dev nD) (t : Fin cfg0.N) : (dat0 V c).after 2 t = iblk V c 2 t := by dsimp only [dat0]
theorem after3 (c : Dev nD) (t : Fin cfg0.N) : (dat0 V c).after 3 t = iblk V c 3 t := by dsimp only [dat0]
theorem after4 (c : Dev nD) (t : Fin cfg0.N) : (dat0 V c).after 4 t = iblk V c 4 t := by dsimp only [dat0]
theorem after5 (c : Dev nD) (t : Fin cfg0.N) : (dat0 V c).after 5 t
    = lossRowOf (grid0.coords t) (iblk V c 0 t) (iblk V c 1 t) (iblk V c 2 t) (iblk V c 3 t) (iblk V c 4 t) := by dsimp only [dat0]
theorem after6 (c : Dev nD) (t : Fin cfg0.N) : (dat0 V c).after 6 t = validRowOf (grid0.coords t) (iblk V c 2 t) (iblk V c 3 t) := by
  dsimp only [dat0]

theorem before0 (c : Dev nD) (t : Fin cfg0.N) (d) : (dat0 V c).before 0 t d = iblk V c 0 t := before_in0_of V (dat0 V c) (A_eq V c 0) (after0 V c) t d
theorem before1 (c : Dev nD) (t : Fin cfg0.N) (d) : (dat0 V c).before 1 t d = iblk V c 1 t := before_in1_of V (dat0 V c) (A_eq V c 1) (after1 V c) t d
theorem before2 (c : Dev nD) (t : Fin cfg0.N) (d) : (dat0 V c).before 2 t d = iblk V c 2 t := before_in2_of V (dat0 V c) (A_eq V c 2) (after2 V c) t d
theorem before3 (c : Dev nD) (t : Fin cfg0.N) (d) : (dat0 V c).before 3 t d = iblk V c 3 t := before_in3_of V (dat0 V c) (A_eq V c 3) (after3 V c) t d
theorem before4 (c : Dev nD) (t : Fin cfg0.N) (d) : (dat0 V c).before 4 t d = iblk V c 4 t := before_in4_of V (dat0 V c) (A_eq V c 4) (after4 V c) t d

/-- What the body is called with at point `t`, the windows one by one, -/
def bodyPre (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' buffers hold their blocks, so the body's triple applies; the invariant and the
    core's dues pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1, before2, before3, before4]
  rw [show (dat0 V c).Φ t.succ = (dat0 V c).Φ t.castSucc from rfl,
    show (dat0 V c).owesAt () t.succ = (dat0 V c).owesAt () t.castSucc from rfl,
    after0, after1, after2, after3, after4, after5, after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _ (iblk V c 0 t) (iblk V c 1 t) (iblk V c 2 t) (iblk V c 3 t) (iblk V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body obligation, at every point. -/
theorem body_obligation (c : Dev nD) : BodyObligation (dat0 (F := F) V c) (defs₀ (F := F)) Variants.none () Set.univ := fun t => by
  rw [bigSep_W0, bigSep_W0]
  exact sound_body V c t

end Region

end Cert.Kernel.Hand

end
-- ==== Proof.BitsArrays.lean ====
/-
  The pipeline's windowed arrays against the core's unscoped buffers, with one array behind two windows.

  Six distinct buffers stand behind the seven windows: the embedding array (windows 0 and 1), the labels as a column,
  the labels as a row, the temperatures, and the two results. The embedding array's points-to at the full share is
  the two windows' points-tos at its two half shares at the same contents; every other array is held whole by its one
  window. So the core's unscoped buffers at contents V split into the arrays at V and the rest, and the arrays at
  contents F (equal on the two windows of the embedding array) with the rest at V make the unscoped buffers at any
  contents that read F on the arrays and V elsewhere.
-/
import proofs.«149726_j26061861552544_1_alg».proof.Proof.BitsDat
import Idealize.ShloMosaic.Lib.Pipeline.Frame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.SL.BI (bigSepL bigSep_eq_bigSepL_of_eq)

section Region
variable (V : (c : Dev nD) → (b : Ref sig .tc) → Buf (Elt F) ((c : Thread nD τ).loc b))

/-- The windowed arrays one by one, each at its window's share. -/
theorem arrays_chain (c : Dev nD) (G : (w : Fin cfg0.W) → Buf (Elt F) ((cfg0.win w).arr.view.loc (c : Thread nD τ))) :
    ((dat0 V c).arrays G : sProp 𝕄)
      = iprop((((c : Thread nD τ).loc main_arg0) ↦{fullShare.left} G 0) ∗ (((c : Thread nD τ).loc main_arg0) ↦{fullShare.right} G 1)
          ∗ (((c : Thread nD τ).loc main_v7) ↦{fullShare} G 2) ∗ (((c : Thread nD τ).loc main_v8) ↦{fullShare} G 3)
          ∗ (((c : Thread nD τ).loc main_v9) ↦{fullShare} G 4) ∗ (((c : Thread nD τ).loc main_v10_0) ↦{fullShare} G 5)
          ∗ (((c : Thread nD τ).loc main_v10_1) ↦{fullShare} G 6)) := by
  unfold Dat.arrays
  rw [bigSep_W0]
  simp only [(arr_whole0 0).set_eq_univ, (arr_whole0 1).set_eq_univ, (arr_whole0 2).set_eq_univ, (arr_whole0 3).set_eq_univ,
    (arr_whole0 4).set_eq_univ, (arr_whole0 5).set_eq_univ, (arr_whole0 6).set_eq_univ]
  rfl

/-- The distinct buffers behind the arrays one by one, each whole at the full share. -/
theorem arrBufs_chain (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_arg0) ↦{fullShare} W main_arg0)
          ∗ (((c : Thread nD τ).loc main_v7) ↦{fullShare} W main_v7) ∗ (((c : Thread nD τ).loc main_v8) ↦{fullShare} W main_v8)
          ∗ (((c : Thread nD τ).loc main_v9) ↦{fullShare} W main_v9) ∗ (((c : Thread nD τ).loc main_v10_0) ↦{fullShare} W main_v10_0)
          ∗ (((c : Thread nD τ).loc main_v10_1) ↦{fullShare} W main_v10_1)) := by
  unfold Pipeline.arrBufs
  exact bigSep_eq_bigSepL_of_eq [main_arg0, main_v7, main_v8, main_v9, main_v10_0, main_v10_1] (by decide) (by decide) _

/-- ENTRY: the unscoped buffers at `W` are the arrays at `W` and the rest. -/
theorem arrays_of_bufs (c : Dev nD) (W : (b : Ref sig .tc) → Buf (Elt F) ((c : Thread nD τ).loc b))
    (G : (w : Fin cfg0.W) → Buf (Elt F) ((cfg0.win w).arr.view.loc (c : Thread nD τ))) (hG : ∀ w, G w = W (Pipeline.arrRef spec0 w)) :
    (unscopedBufs c W : sProp 𝕄) ⊢ iprop((dat0 V c).arrays G ∗ Pipeline.unscopedRest spec0 c W) := by
  rw [Pipeline.unscopedBufs_split₀ cfgs 0 winFacts₀0.arr_unscoped c W, arrays_chain, arrBufs_chain,
    hG 0, hG 1, hG 2, hG 3, hG 4, hG 5, hG 6]
  iintro ⟨⟨H0, H2, H3, H4, H5, H6⟩, Hr⟩
  ihave H01 := (pointsTo_share (PosShare.mem_left_op_right fullShare)).1 $$ H0
  icases H01 with ⟨H0, H1⟩
  isplitr [Hr]
  · isplitl [H0]; · iexact H0
    isplitl [H1]; · iexact H1
    isplitl [H2]; · iexact H2
    isplitl [H3]; · iexact H3
    isplitl [H4]; · iexact H4
    isplitl [H5]; · iexact H5
    iexact H6
  iexact Hr

/-- EXIT: the arrays at `G` and the rest at `W` are the unscoped buffers at any `W'` that reads `G` on the arrays and
    `W` off them. -/
theorem bufs_of_arrays (c : Dev nD) (W W' : (b : Ref sig .tc) → Buf (Elt F) ((c : Thread nD τ).loc b))
    (G : (w : Fin cfg0.W) → Buf (Elt F) ((cfg0.win w).arr.view.loc (c : Thread nD τ))) (hG : ∀ w, G w = W' (Pipeline.arrRef spec0 w))
    (hrest : ∀ b, b ∉ Finset.univ.image (Pipeline.arrRef spec0) → W' b = W b) :
    iprop((dat0 V c).arrays G ∗ Pipeline.unscopedRest spec0 c W) ⊢ (unscopedBufs c W' : sProp 𝕄) := by
  rw [Pipeline.unscopedBufs_split₀ cfgs 0 winFacts₀0.arr_unscoped c W', arrays_chain, arrBufs_chain,
    hG 0, hG 1, hG 2, hG 3, hG 4, hG 5, hG 6]
  refine sep_mono ?_ (Entails.of_eq ?_)
  · iintro ⟨H0, H1, H2, H3, H4, H5, H6⟩
    isplitl [H0 H1]
    · iapply (pointsTo_share (PosShare.mem_left_op_right fullShare)).2
      isplitl [H0]; · iexact H0
      iexact H1
    isplitl [H2]; · iexact H2
    isplitl [H3]; · iexact H3
    isplitl [H4]; · iexact H4
    isplitl [H5]; · iexact H5
    iexact H6
  · unfold Pipeline.unscopedRest
    exact (bigSep_congr fun b hb => by rw [hrest b (Finset.mem_sdiff.mp hb).2]).symm

end Region

end Cert.Kernel.Hand

end
-- ==== Proof.BitsRun.lean ====
/-
  The run of the contrastive-loss program: host operations, the kernel region, host operations.

  @main is thirteen host operations (the temperature gather and three reshapes), the one kernel region, ten host
  operations (the two total sums and the final quotient) and the two operations of the closing selection. The run
  follows the core's unscoped buffers through these four segments: at launch; after the first stretch (the region's
  entry contents); after the region, where only the two result arrays have changed, to what the pipeline's
  write-backs leave; after each of the last two stretches. Every weakly fair execution terminates, the result buffer
  ends at the last contents, and both arguments end as launched (no segment writes them).
-/
import proofs.«149726_j26061861552544_1_alg».proof.Proof.BitsArrays
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- After the first host stretch: the region's entry contents. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the region's exit: the two result arrays at what the write-backs leave, every other buffer as entered. -/
def W2 (c : Dev nD) : Valuation τ sig (Elt F) :=
  Function.update (Function.update (W1 m ρ c) main_v10_0 ((dat0 (V1 m ρ) c).arrAt 5 cfg0.N)) main_v10_1 ((dat0 (V1 m ρ) c).arrAt 6 cfg0.N)
abbrev V2 : (c : Dev nD) → (b : Ref sig .tc) → Buf (Elt F) ((c : Thread nD τ).loc b) := fun c b => W2 m ρ c b
/-- After the second host stretch, and after the closing selection. -/
abbrev W3 : Dev nD → Valuation τ sig (Elt F) := fun c => StableHlo.after hostOps1 (W2 m ρ c)
abbrev W4 : Dev nD → Valuation τ sig (Elt F) := fun c => StableHlo.after hostOps1_1 (W3 m ρ c)

theorem W2_of_ne (c : Dev nD) (b : Ref sig .tc) (h5 : b ≠ main_v10_0) (h6 : b ≠ main_v10_1) :
    W2 m ρ c (Proc.devRef .tc b) = W1 m ρ c (Proc.devRef .tc b) := by
  unfold W2
  rw [Function.update_of_ne (StableHlo.devRef_ne_of_ne h6), Function.update_of_ne (StableHlo.devRef_ne_of_ne h5)]
theorem W2_v10_0 (c : Dev nD) : W2 m ρ c (Proc.devRef .tc main_v10_0) = (dat0 (V1 m ρ) c).arrAt 5 cfg0.N := by
  unfold W2
  rw [Function.update_of_ne (StableHlo.devRef_ne_of_ne (by decide)), Function.update_self]
theorem W2_v10_1 (c : Dev nD) : W2 m ρ c (Proc.devRef .tc main_v10_1) = (dat0 (V1 m ρ) c).arrAt 6 cfg0.N := by
  unfold W2
  rw [Function.update_self]

/-- At the region's exit each array holds what the pipeline leaves: an input what it held at entry, a result its
    write-backs. -/
theorem hF0 (c : Dev nD) : ∀ w : Fin cfg0.W, (dat0 (V1 m ρ) c).arrAt w cfg0.N = V2 m ρ c (Pipeline.arrRef spec0 w)
  | ⟨0, _⟩ => (((dat0 (V1 m ρ) c).arrAt_in 0 rfl _).trans (A_eq (V1 m ρ) c 0)).trans (W2_of_ne m ρ c main_arg0 (by decide) (by decide)).symm
  | ⟨1, _⟩ => (((dat0 (V1 m ρ) c).arrAt_in 1 rfl _).trans (A_eq (V1 m ρ) c 1)).trans (W2_of_ne m ρ c main_arg0 (by decide) (by decide)).symm
  | ⟨2, _⟩ => (((dat0 (V1 m ρ) c).arrAt_in 2 rfl _).trans (A_eq (V1 m ρ) c 2)).trans (W2_of_ne m ρ c main_v7 (by decide) (by decide)).symm
  | ⟨3, _⟩ => (((dat0 (V1 m ρ) c).arrAt_in 3 rfl _).trans (A_eq (V1 m ρ) c 3)).trans (W2_of_ne m ρ c main_v8 (by decide) (by decide)).symm
  | ⟨4, _⟩ => (((dat0 (V1 m ρ) c).arrAt_in 4 rfl _).trans (A_eq (V1 m ρ) c 4)).trans (W2_of_ne m ρ c main_v9 (by decide) (by decide)).symm
  | ⟨5, _⟩ => (W2_v10_0 m ρ c).symm
  | ⟨6, _⟩ => (W2_v10_1 m ρ c).symm
theorem hrest0 (c : Dev nD) : ∀ b, b ∉ Finset.univ.image (Pipeline.arrRef spec0) → V2 m ρ c b = V1 m ρ c b :=
  fun b hb => W2_of_ne m ρ c b (fun e => hb (Finset.mem_image.mpr ⟨5, Finset.mem_univ _, e.symm⟩))
    (fun e => hb (Finset.mem_image.mpr ⟨6, Finset.mem_univ _, e.symm⟩))

/-! ### The arguments end as launched -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := StableHlo.after_of_forall_not_mem (b := Proc.devRef .tc main_arg0) _ _ (List.forall_iff_forall_mem.mp (by
          simp only [List.Forall, StableHlo.nullary_writes, StableHlo.unary_writes, StableHlo.binary_writes, StableHlo.ternary_writes, StableHlo.quaternary_writes, StableHlo.reshape_writes, StableHlo.binaryIndexed_writes, StableHlo.TRef.unary, StableHlo.TRef.ternary, Finset.mem_singleton]
          repeat' apply And.intro
          all_goals exact StableHlo.devRef_ne_of_ne (by decide)))
    _ = W2 m ρ c (Proc.devRef .tc main_arg0) := StableHlo.after_of_forall_not_mem (b := Proc.devRef .tc main_arg0) _ _ (List.forall_iff_forall_mem.mp (by
          simp only [List.Forall, StableHlo.nullary_writes, StableHlo.unary_writes, StableHlo.binary_writes, StableHlo.ternary_writes, StableHlo.quaternary_writes, StableHlo.reshape_writes, StableHlo.binaryIndexed_writes, StableHlo.TRef.unary, StableHlo.TRef.ternary, Finset.mem_singleton]
          repeat' apply And.intro
          all_goals exact StableHlo.devRef_ne_of_ne (by decide)))
    _ = W1 m ρ c (Proc.devRef .tc main_arg0) := W2_of_ne m ρ c main_arg0 (by decide) (by decide)
    _ = W0 m ρ c (Proc.devRef .tc main_arg0) := StableHlo.after_of_forall_not_mem (b := Proc.devRef .tc main_arg0) _ _ (List.forall_iff_forall_mem.mp (by
          simp only [List.Forall, StableHlo.nullary_writes, StableHlo.unary_writes, StableHlo.binary_writes, StableHlo.ternary_writes, StableHlo.quaternary_writes, StableHlo.reshape_writes, StableHlo.binaryIndexed_writes, StableHlo.TRef.unary, StableHlo.TRef.ternary, Finset.mem_singleton]
          repeat' apply And.intro
          all_goals exact StableHlo.devRef_ne_of_ne (by decide)))
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := StableHlo.after_of_forall_not_mem (b := Proc.devRef .tc main_arg1) _ _ (List.forall_iff_forall_mem.mp (by
          simp only [List.Forall, StableHlo.nullary_writes, StableHlo.unary_writes, StableHlo.binary_writes, StableHlo.ternary_writes, StableHlo.quaternary_writes, StableHlo.reshape_writes, StableHlo.binaryIndexed_writes, StableHlo.TRef.unary, StableHlo.TRef.ternary, Finset.mem_singleton]
          repeat' apply And.intro
          all_goals exact StableHlo.devRef_ne_of_ne (by decide)))
    _ = W2 m ρ c (Proc.devRef .tc main_arg1) := StableHlo.after_of_forall_not_mem (b := Proc.devRef .tc main_arg1) _ _ (List.forall_iff_forall_mem.mp (by
          simp only [List.Forall, StableHlo.nullary_writes, StableHlo.unary_writes, StableHlo.binary_writes, StableHlo.ternary_writes, StableHlo.quaternary_writes, StableHlo.reshape_writes, StableHlo.binaryIndexed_writes, StableHlo.TRef.unary, StableHlo.TRef.ternary, Finset.mem_singleton]
          repeat' apply And.intro
          all_goals exact StableHlo.devRef_ne_of_ne (by decide)))
    _ = W1 m ρ c (Proc.devRef .tc main_arg1) := W2_of_ne m ρ c main_arg1 (by decide) (by decide)
    _ = W0 m ρ c (Proc.devRef .tc main_arg1) := StableHlo.after_of_forall_not_mem (b := Proc.devRef .tc main_arg1) _ _ (List.forall_iff_forall_mem.mp (by
          simp only [List.Forall, StableHlo.nullary_writes, StableHlo.unary_writes, StableHlo.binary_writes, StableHlo.ternary_writes, StableHlo.quaternary_writes, StableHlo.reshape_writes, StableHlo.binaryIndexed_writes, StableHlo.TRef.unary, StableHlo.TRef.ternary, Finset.mem_singleton]
          repeat' apply And.intro
          all_goals exact StableHlo.devRef_ne_of_ne (by decide)))
    _ = m ((c : Thread nD τ).loc main_arg1) := rfl

/-! ## The proof data family, the thread state, the segments -/

abbrev adm : (p : Fin 1) → (pcfgs (F := F) p).Adm := fun p => (cfgs p).toPCfg_adm
def pdats : (p : Fin 1) → (c : Dev nD) → Dat τ (Elt F) Unit ℕ (UR sig nD τ) ℕ (Pipeline.pin (pcfgs (F := F)) adm p) c
  | ⟨0, _⟩ => fun c => dat0 (V1 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and the core owing
    nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

set_option backward.isDefEq.respectTransparency.types false in
/-- THE REGION over the thread state: entered from every unscoped buffer at the first stretch's contents, left at
    the exit contents. The arrays are dealt out of the unscoped buffers (the embedding array in two half shares) and
    put back; the generator register goes into the invariant and comes out; nothing is owed. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := arrays_of_bufs (V1 m ρ) c (V1 m ρ c) ((dat0 (V1 m ρ) c).arrAt · 0) (fun w => A_eq (V1 m ρ) c w)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := bufs_of_arrays (V1 m ρ) c (V1 m ρ c) (V2 m ρ c) ((dat0 (V1 m ρ) c).arrAt · cfg0.N) (hF0 m ρ c) (hrest0 m ρ c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-- @main's four segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .host (hseg hostOps1_1 hostOps1_1_sub hostOps1_1_fresh (W3 m ρ)) ]
theorem main_run (c : Dev nD) : main (F := F) c = Pipeline.Seg.run (segs m ρ) := (main_chain c).trans (by chain_rfl)

set_option backward.isDefEq.respectTransparency.types false in
/-- THE RUN, at any float instance: from any memory with zero counters every weakly fair execution of @main on the
    TensorCores terminates, nothing faulting; the result buffer ends at the last boundary's contents, and both
    argument arrays end as launched. -/
theorem run_main : θ_run defs (onTc (τ := τ) (main (F := F))) ⟨m, fun _ => 0, ρ⟩ (fun r => ∀ c : Dev nD,
      r.2.mem ((c.tc : Thread nD τ).loc main_v16) = W4 m ρ c (Proc.devRef .tc main_v16)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (W4 m ρ c) ∗ R c)
        ⊢ iprop(Tₙ m ρ c ∗ ∃ W, owes (c : Thread nD τ) (0 : CellTallies nD τ sig Unit) W)
      iintro ⟨Hh, Hp, HO⟩
      isplitr [HO]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v16 (by decide)),
        (h c _ (mem_uc main_arg0 (by decide))).trans (W4_main_arg0 m ρ c),
        (h c _ (mem_uc main_arg1 (by decide))).trans (W4_main_arg1 m ρ c)⟩)

end Cert.Kernel.Hand

end
-- ==== Proof.KernBody.lean ====
/-
  The kernel body of the contrastive-loss program, run on whole staging buffers.

  At one grid point the body reads five blocks — a 128-row block of the embeddings, the whole embedding array,
  the block's labels as a column, all labels as a row, the block's temperatures as a column — and overwrites
  two 1×128 output rows: the per-row loss and the per-row validity flag of the block's rows. Nothing else is
  touched. This module states that as a triple: the inputs are left as found, each output buffer ends holding
  the one value the body stores into it, a pure function of the five blocks and the point.
-/
import proofs.«149726_j26061861552544_1_alg».proof.Proof.Gen.KernelIdeal.Launch
import proofs.«149726_j26061861552544_1_alg».proof.Proof.Gen.KernelIdeal.Skeleton
import proofs.«149726_j26061861552544_1_alg».proof.Proof.Gen.KernelIdeal.Points
import Idealize.ShloMosaic.Lib.Pipeline.FrameBody
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole-buffer rectangles the body reads and writes through. -/
abbrev rQ : Rect S128x128 := Rect.unit (s := S128x128) ![0, 0] S128x128.size inb_S128x128_S128x128_0_0
abbrev rE : Rect S8192x128 := Rect.unit (s := S8192x128) ![0, 0] S8192x128.size inb_S8192x128_S8192x128_0_0
abbrev rC : Rect S128x1 := Rect.unit (s := S128x1) ![0, 0] S128x1.size inb_S128x1_S128x1_0_0
abbrev rR : Rect S1x8192 := Rect.unit (s := S1x8192) ![0, 0] S1x8192.size inb_S1x8192_S1x8192_0_0
abbrev rO : Rect S1x128 := Rect.unit (s := S1x128) ![0, 0] S1x128.size inb_S1x128_S1x128_0_0

/-- The per-row losses of a block of rows, as a 1×128 row: the one value the body stores into its first output,
    written as the buffer's contents after that store. -/
def lossRowOf (i : grid0.Coords) (x0 : Vec F S128x128 .f32) (x1 : Vec F S8192x128 .f32) (x2 : Vec F S128x1 .i32)
    (x3 : Vec F S1x8192 .i32) (x4 : Vec F S128x1 .f32) : Vec F S1x128 .f32 :=
  View.canon [⟨rO, k0_pay3 (k0_pay5 (View.ld x4 rC)) (k0_pay6 (View.ld x0 rQ) (View.ld x1 rE) (View.ld x4 rC))
    (k0_pay7 i (View.ld x2 rC) (View.ld x3 rR)) (k0_pay8 i (View.ld x2 rC) (View.ld x3 rR))⟩]

/-- The per-row validity flags of the block, as a 1×128 row: the one value the body stores into its second output. -/
def validRowOf (i : grid0.Coords) (x2 : Vec F S128x1 .i32) (x3 : Vec F S1x8192 .i32) : Vec F S1x128 .f32 :=
  View.canon [⟨rO, k0_pay4 (k0_pay8 i (View.ld x2 rC) (View.ld x3 rR))⟩]

/-- One whole-buffer store covers the buffer. -/
theorem cover_out (p0 : Vec F S1x128 .f32) (y : S1x128.Idx) :
    ∃ pc ∈ ([⟨rO, p0⟩] : List (View.Piece (Elt F) S1x128 .f32)), y ∈ pc.1.set :=
  View.cover_of_tiled [⟨rO, p0⟩] S1x128.size (by rfl) y

set_option maxHeartbeats 4000000 in
/-- The body on whole staging memrefs: the five inputs at read contents are left as they were, and the two output
    rows, whatever they held, end at the loss row and the validity row of the blocks. -/
theorem sound_kernel (c : Dev nD) (E : Set ℕ) (i : grid0.Coords)
    (arg1 : Memref sig .tc .vmem S128x128 .f32) (harg1 : arg1.IsWhole) (arg2 : Memref sig .tc .vmem S8192x128 .f32) (harg2 : arg2.IsWhole)
    (arg3 : Memref sig .tc .vmem S128x1 .i32) (harg3 : arg3.IsWhole) (arg4 : Memref sig .tc .vmem S1x8192 .i32) (harg4 : arg4.IsWhole)
    (arg5 : Memref sig .tc .vmem S128x1 .f32) (harg5 : arg5.IsWhole) (arg6 : Memref sig .tc .vmem S1x128 .f32) (harg6 : arg6.IsWhole)
    (arg7 : Memref sig .tc .vmem S1x128 .f32) (harg7 : arg7.IsWhole)
    (x0 : Vec F S128x128 .f32) (x1 : Vec F S8192x128 .f32) (x2 : Vec F S128x1 .i32) (x3 : Vec F S1x8192 .i32) (x4 : Vec F S128x1 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (lossRowOf i x0 x1 x2 x3 x4) ∗ owns (c : Thread nD τ) arg7 fullShare (validRowOf i x2 x3)) -∗ K ⟨⟩))
      ⊢ wp frame (wpE (defs₀ (F := F)) Variants.none c none) E
          (cc0__kernel i arg1 harg1 arg2 harg2 arg3 harg3 arg4 harg4 arg5 harg5 arg6 harg6 arg7 harg7) K := by
  simp only [cc0__kernel_eq_skeleton]; unfold cc0__kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    try dsimp only
    exact View.read_writes_eq_canon _ _ _ (cover_out _)
  iexists _; isplitr
  swap; · iexact H6
  ipureintro
  try dsimp only
  exact View.read_writes_eq_canon _ _ _ (cover_out _)

end Cert.KernelIdeal.Hand

end
-- ==== Proof.KernDat.lean ====
/-
  The proof data of the one pipeline of the contrastive-loss program.

  The grid has 64 points, one per block of 128 rows. At point t the five input windows hold: rows 128t … 128t+127
  of the embeddings; the whole embedding array (a second window on the SAME array: the array's share is dealt in two
  halves, one per window); the block's labels; all labels; the block's temperatures. The two output windows end
  holding the block's loss row and validity row. Inputs are left in place by the body, so each is found at its
  block at every point, fetched there or not.
-/
import proofs.«149726_j26061861552544_1_alg».proof.Proof.KernBody
import Idealize.ShloMosaic.Lib.Pipeline.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's current staging buffer holds its block at every point, fetched there or not: the body leaves
    it in place, and an unfetched point has the previous point's block index. -/
theorem before_in0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4_of {c : Dev nD} (dat : Dat τ (Elt F) Unit ℕ (UR sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- The proof data on core `c`. The two windows on the embedding array hold complementary halves of its share. -/
def dat0 (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => lossRowOf (grid0.coords t) (iblk V c 0 t) (iblk V c 1 t) (iblk V c 2 t) (iblk V c 3 t) (iblk V c 4 t)
    | ⟨6, _⟩ => validRowOf (grid0.coords t) (iblk V c 2 t) (iblk V c 3 t)
  Φ _ := Pipeline.ΦA spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
  owed _ := 0

theorem A_eq (c : Dev nD) (w : Fin cfg0.W) : (dat0 V c).A w = V c (Pipeline.arrRef spec0 w) := by
  dsimp only [dat0]

theorem after0 (c : Dev nD) (t : Fin cfg0.N) : (dat0 V c).after 0 t = iblk V c 0 t := by dsimp only [dat0]
theorem after1 (c : Dev nD) (t : Fin cfg0.N) : (dat0 V c).after 1 t = iblk V c 1 t := by dsimp only [dat0]
theorem after2 (c : Dev nD) (t : Fin cfg0.N) : (dat0 V c).after 2 t = iblk V c 2 t := by dsimp only [dat0]
theorem after3 (c : Dev nD) (t : Fin cfg0.N) : (dat0 V c).after 3 t = iblk V c 3 t := by dsimp only [dat0]
theorem after4 (c : Dev nD) (t : Fin cfg0.N) : (dat0 V c).after 4 t = iblk V c 4 t := by dsimp only [dat0]
theorem after5 (c : Dev nD) (t : Fin cfg0.N) : (dat0 V c).after 5 t
    = lossRowOf (grid0.coords t) (iblk V c 0 t) (iblk V c 1 t) (iblk V c 2 t) (iblk V c 3 t) (iblk V c 4 t) := by dsimp only [dat0]
theorem after6 (c : Dev nD) (t : Fin cfg0.N) : (dat0 V c).after 6 t = validRowOf (grid0.coords t) (iblk V c 2 t) (iblk V c 3 t) := by
  dsimp only [dat0]

theorem before0 (c : Dev nD) (t : Fin cfg0.N) (d) : (dat0 V c).before 0 t d = iblk V c 0 t := before_in0_of V (dat0 V c) (A_eq V c 0) (after0 V c) t d
theorem before1 (c : Dev nD) (t : Fin cfg0.N) (d) : (dat0 V c).before 1 t d = iblk V c 1 t := before_in1_of V (dat0 V c) (A_eq V c 1) (after1 V c) t d
theorem before2 (c : Dev nD) (t : Fin cfg0.N) (d) : (dat0 V c).before 2 t d = iblk V c 2 t := before_in2_of V (dat0 V c) (A_eq V c 2) (after2 V c) t d
theorem before3 (c : Dev nD) (t : Fin cfg0.N) (d) : (dat0 V c).before 3 t d = iblk V c 3 t := before_in3_of V (dat0 V c) (A_eq V c 3) (after3 V c) t d
theorem before4 (c : Dev nD) (t : Fin cfg0.N) (d) : (dat0 V c).before 4 t d = iblk V c 4 t := before_in4_of V (dat0 V c) (A_eq V c 4) (after4 V c) t d

/-- What the body is called with at point `t`, the windows one by one, -/
def bodyPre (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' buffers hold their blocks, so the body's triple applies; the invariant and the
    core's dues pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1, before2, before3, before4]
  rw [show (dat0 V c).Φ t.succ = (dat0 V c).Φ t.castSucc from rfl,
    show (dat0 V c).owesAt () t.succ = (dat0 V c).owesAt () t.castSucc from rfl,
    after0, after1, after2, after3, after4, after5, after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _ (iblk V c 0 t) (iblk V c 1 t) (iblk V c 2 t) (iblk V c 3 t) (iblk V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body obligation, at every point. -/
theorem body_obligation (c : Dev nD) : BodyObligation (dat0 (F := F) V c) (defs₀ (F := F)) Variants.none () Set.univ := fun t => by
  rw [bigSep_W0, bigSep_W0]
  exact sound_body V c t

end Region

end Cert.KernelIdeal.Hand

end
-- ==== Proof.KernArrays.lean ====
/-
  The pipeline's windowed arrays against the core's unscoped buffers, with one array behind two windows.

  Six distinct buffers stand behind the seven windows: the embedding array (windows 0 and 1), the labels as a column,
  the labels as a row, the temperatures, and the two results. The embedding array's points-to at the full share is
  the two windows' points-tos at its two half shares at the same contents; every other array is held whole by its one
  window. So the core's unscoped buffers at contents V split into the arrays at V and the rest, and the arrays at
  contents F (equal on the two windows of the embedding array) with the rest at V make the unscoped buffers at any
  contents that read F on the arrays and V elsewhere.
-/
import proofs.«149726_j26061861552544_1_alg».proof.Proof.KernDat
import Idealize.ShloMosaic.Lib.Pipeline.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.SL.BI (bigSepL bigSep_eq_bigSepL_of_eq)

section Region
variable (V : (c : Dev nD) → (b : Ref sig .tc) → Buf (Elt F) ((c : Thread nD τ).loc b))

/-- The windowed arrays one by one, each at its window's share. -/
theorem arrays_chain (c : Dev nD) (G : (w : Fin cfg0.W) → Buf (Elt F) ((cfg0.win w).arr.view.loc (c : Thread nD τ))) :
    ((dat0 V c).arrays G : sProp 𝕄)
      = iprop((((c : Thread nD τ).loc main_arg0) ↦{fullShare.left} G 0) ∗ (((c : Thread nD τ).loc main_arg0) ↦{fullShare.right} G 1)
          ∗ (((c : Thread nD τ).loc main_v7) ↦{fullShare} G 2) ∗ (((c : Thread nD τ).loc main_v8) ↦{fullShare} G 3)
          ∗ (((c : Thread nD τ).loc main_v9) ↦{fullShare} G 4) ∗ (((c : Thread nD τ).loc main_v10_0) ↦{fullShare} G 5)
          ∗ (((c : Thread nD τ).loc main_v10_1) ↦{fullShare} G 6)) := by
  unfold Dat.arrays
  rw [bigSep_W0]
  simp only [(arr_whole0 0).set_eq_univ, (arr_whole0 1).set_eq_univ, (arr_whole0 2).set_eq_univ, (arr_whole0 3).set_eq_univ,
    (arr_whole0 4).set_eq_univ, (arr_whole0 5).set_eq_univ, (arr_whole0 6).set_eq_univ]
  rfl

/-- The distinct buffers behind the arrays one by one, each whole at the full share. -/
theorem arrBufs_chain (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_arg0) ↦{fullShare} W main_arg0)
          ∗ (((c : Thread nD τ).loc main_v7) ↦{fullShare} W main_v7) ∗ (((c : Thread nD τ).loc main_v8) ↦{fullShare} W main_v8)
          ∗ (((c : Thread nD τ).loc main_v9) ↦{fullShare} W main_v9) ∗ (((c : Thread nD τ).loc main_v10_0) ↦{fullShare} W main_v10_0)
          ∗ (((c : Thread nD τ).loc main_v10_1) ↦{fullShare} W main_v10_1)) := by
  unfold Pipeline.arrBufs
  exact bigSep_eq_bigSepL_of_eq [main_arg0, main_v7, main_v8, main_v9, main_v10_0, main_v10_1] (by decide) (by decide) _

/-- ENTRY: the unscoped buffers at `W` are the arrays at `W` and the rest. -/
theorem arrays_of_bufs (c : Dev nD) (W : (b : Ref sig .tc) → Buf (Elt F) ((c : Thread nD τ).loc b))
    (G : (w : Fin cfg0.W) → Buf (Elt F) ((cfg0.win w).arr.view.loc (c : Thread nD τ))) (hG : ∀ w, G w = W (Pipeline.arrRef spec0 w)) :
    (unscopedBufs c W : sProp 𝕄) ⊢ iprop((dat0 V c).arrays G ∗ Pipeline.unscopedRest spec0 c W) := by
  rw [Pipeline.unscopedBufs_split₀ cfgs 0 winFacts₀0.arr_unscoped c W, arrays_chain, arrBufs_chain,
    hG 0, hG 1, hG 2, hG 3, hG 4, hG 5, hG 6]
  iintro ⟨⟨H0, H2, H3, H4, H5, H6⟩, Hr⟩
  ihave H01 := (pointsTo_share (PosShare.mem_left_op_right fullShare)).1 $$ H0
  icases H01 with ⟨H0, H1⟩
  isplitr [Hr]
  · isplitl [H0]; · iexact H0
    isplitl [H1]; · iexact H1
    isplitl [H2]; · iexact H2
    isplitl [H3]; · iexact H3
    isplitl [H4]; · iexact H4
    isplitl [H5]; · iexact H5
    iexact H6
  iexact Hr

/-- EXIT: the arrays at `G` and the rest at `W` are the unscoped buffers at any `W'` that reads `G` on the arrays and
    `W` off them. -/
theorem bufs_of_arrays (c : Dev nD) (W W' : (b : Ref sig .tc) → Buf (Elt F) ((c : Thread nD τ).loc b))
    (G : (w : Fin cfg0.W) → Buf (Elt F) ((cfg0.win w).arr.view.loc (c : Thread nD τ))) (hG : ∀ w, G w = W' (Pipeline.arrRef spec0 w))
    (hrest : ∀ b, b ∉ Finset.univ.image (Pipeline.arrRef spec0) → W' b = W b) :
    iprop((dat0 V c).arrays G ∗ Pipeline.unscopedRest spec0 c W) ⊢ (unscopedBufs c W' : sProp 𝕄) := by
  rw [Pipeline.unscopedBufs_split₀ cfgs 0 winFacts₀0.arr_unscoped c W', arrays_chain, arrBufs_chain,
    hG 0, hG 1, hG 2, hG 3, hG 4, hG 5, hG 6]
  refine sep_mono ?_ (Entails.of_eq ?_)
  · iintro ⟨H0, H1, H2, H3, H4, H5, H6⟩
    isplitl [H0 H1]
    · iapply (pointsTo_share (PosShare.mem_left_op_right fullShare)).2
      isplitl [H0]; · iexact H0
      iexact H1
    isplitl [H2]; · iexact H2
    isplitl [H3]; · iexact H3
    isplitl [H4]; · iexact H4
    isplitl [H5]; · iexact H5
    iexact H6
  · unfold Pipeline.unscopedRest
    exact (bigSep_congr fun b hb => by rw [hrest b (Finset.mem_sdiff.mp hb).2]).symm

end Region

end Cert.KernelIdeal.Hand

end
-- ==== Proof.KernRun.lean ====
/-
  The run of the contrastive-loss program: host operations, the kernel region, host operations.

  @main is thirteen host operations (the temperature gather and three reshapes), the one kernel region, ten host
  operations (the two total sums and the final quotient) and the two operations of the closing selection. The run
  follows the core's unscoped buffers through these four segments: at launch; after the first stretch (the region's
  entry contents); after the region, where only the two result arrays have changed, to what the pipeline's
  write-backs leave; after each of the last two stretches. Every weakly fair execution terminates, the result buffer
  ends at the last contents, and both arguments end as launched (no segment writes them).
-/
import proofs.«149726_j26061861552544_1_alg».proof.Proof.KernArrays
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- After the first host stretch: the region's entry contents. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the region's exit: the two result arrays at what the write-backs leave, every other buffer as entered. -/
def W2 (c : Dev nD) : Valuation τ sig (Elt F) :=
  Function.update (Function.update (W1 m ρ c) main_v10_0 ((dat0 (V1 m ρ) c).arrAt 5 cfg0.N)) main_v10_1 ((dat0 (V1 m ρ) c).arrAt 6 cfg0.N)
abbrev V2 : (c : Dev nD) → (b : Ref sig .tc) → Buf (Elt F) ((c : Thread nD τ).loc b) := fun c b => W2 m ρ c b
/-- After the second host stretch, and after the closing selection. -/
abbrev W3 : Dev nD → Valuation τ sig (Elt F) := fun c => StableHlo.after hostOps1 (W2 m ρ c)
abbrev W4 : Dev nD → Valuation τ sig (Elt F) := fun c => StableHlo.after hostOps1_1 (W3 m ρ c)

theorem W2_of_ne (c : Dev nD) (b : Ref sig .tc) (h5 : b ≠ main_v10_0) (h6 : b ≠ main_v10_1) :
    W2 m ρ c (Proc.devRef .tc b) = W1 m ρ c (Proc.devRef .tc b) := by
  unfold W2
  rw [Function.update_of_ne (StableHlo.devRef_ne_of_ne h6), Function.update_of_ne (StableHlo.devRef_ne_of_ne h5)]
theorem W2_v10_0 (c : Dev nD) : W2 m ρ c (Proc.devRef .tc main_v10_0) = (dat0 (V1 m ρ) c).arrAt 5 cfg0.N := by
  unfold W2
  rw [Function.update_of_ne (StableHlo.devRef_ne_of_ne (by decide)), Function.update_self]
theorem W2_v10_1 (c : Dev nD) : W2 m ρ c (Proc.devRef .tc main_v10_1) = (dat0 (V1 m ρ) c).arrAt 6 cfg0.N := by
  unfold W2
  rw [Function.update_self]

/-- At the region's exit each array holds what the pipeline leaves: an input what it held at entry, a result its
    write-backs. -/
theorem hF0 (c : Dev nD) : ∀ w : Fin cfg0.W, (dat0 (V1 m ρ) c).arrAt w cfg0.N = V2 m ρ c (Pipeline.arrRef spec0 w)
  | ⟨0, _⟩ => (((dat0 (V1 m ρ) c).arrAt_in 0 rfl _).trans (A_eq (V1 m ρ) c 0)).trans (W2_of_ne m ρ c main_arg0 (by decide) (by decide)).symm
  | ⟨1, _⟩ => (((dat0 (V1 m ρ) c).arrAt_in 1 rfl _).trans (A_eq (V1 m ρ) c 1)).trans (W2_of_ne m ρ c main_arg0 (by decide) (by decide)).symm
  | ⟨2, _⟩ => (((dat0 (V1 m ρ) c).arrAt_in 2 rfl _).trans (A_eq (V1 m ρ) c 2)).trans (W2_of_ne m ρ c main_v7 (by decide) (by decide)).symm
  | ⟨3, _⟩ => (((dat0 (V1 m ρ) c).arrAt_in 3 rfl _).trans (A_eq (V1 m ρ) c 3)).trans (W2_of_ne m ρ c main_v8 (by decide) (by decide)).symm
  | ⟨4, _⟩ => (((dat0 (V1 m ρ) c).arrAt_in 4 rfl _).trans (A_eq (V1 m ρ) c 4)).trans (W2_of_ne m ρ c main_v9 (by decide) (by decide)).symm
  | ⟨5, _⟩ => (W2_v10_0 m ρ c).symm
  | ⟨6, _⟩ => (W2_v10_1 m ρ c).symm
theorem hrest0 (c : Dev nD) : ∀ b, b ∉ Finset.univ.image (Pipeline.arrRef spec0) → V2 m ρ c b = V1 m ρ c b :=
  fun b hb => W2_of_ne m ρ c b (fun e => hb (Finset.mem_image.mpr ⟨5, Finset.mem_univ _, e.symm⟩))
    (fun e => hb (Finset.mem_image.mpr ⟨6, Finset.mem_univ _, e.symm⟩))

/-! ### The arguments end as launched -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := StableHlo.after_of_forall_not_mem (b := Proc.devRef .tc main_arg0) _ _ (List.forall_iff_forall_mem.mp (by
          simp only [List.Forall, StableHlo.nullary_writes, StableHlo.unary_writes, StableHlo.binary_writes, StableHlo.ternary_writes, StableHlo.quaternary_writes, StableHlo.reshape_writes, StableHlo.binaryIndexed_writes, StableHlo.TRef.unary, StableHlo.TRef.ternary, Finset.mem_singleton]
          repeat' apply And.intro
          all_goals exact StableHlo.devRef_ne_of_ne (by decide)))
    _ = W2 m ρ c (Proc.devRef .tc main_arg0) := StableHlo.after_of_forall_not_mem (b := Proc.devRef .tc main_arg0) _ _ (List.forall_iff_forall_mem.mp (by
          simp only [List.Forall, StableHlo.nullary_writes, StableHlo.unary_writes, StableHlo.binary_writes, StableHlo.ternary_writes, StableHlo.quaternary_writes, StableHlo.reshape_writes, StableHlo.binaryIndexed_writes, StableHlo.TRef.unary, StableHlo.TRef.ternary, Finset.mem_singleton]
          repeat' apply And.intro
          all_goals exact StableHlo.devRef_ne_of_ne (by decide)))
    _ = W1 m ρ c (Proc.devRef .tc main_arg0) := W2_of_ne m ρ c main_arg0 (by decide) (by decide)
    _ = W0 m ρ c (Proc.devRef .tc main_arg0) := StableHlo.after_of_forall_not_mem (b := Proc.devRef .tc main_arg0) _ _ (List.forall_iff_forall_mem.mp (by
          simp only [List.Forall, StableHlo.nullary_writes, StableHlo.unary_writes, StableHlo.binary_writes, StableHlo.ternary_writes, StableHlo.quaternary_writes, StableHlo.reshape_writes, StableHlo.binaryIndexed_writes, StableHlo.TRef.unary, StableHlo.TRef.ternary, Finset.mem_singleton]
          repeat' apply And.intro
          all_goals exact StableHlo.devRef_ne_of_ne (by decide)))
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := StableHlo.after_of_forall_not_mem (b := Proc.devRef .tc main_arg1) _ _ (List.forall_iff_forall_mem.mp (by
          simp only [List.Forall, StableHlo.nullary_writes, StableHlo.unary_writes, StableHlo.binary_writes, StableHlo.ternary_writes, StableHlo.quaternary_writes, StableHlo.reshape_writes, StableHlo.binaryIndexed_writes, StableHlo.TRef.unary, StableHlo.TRef.ternary, Finset.mem_singleton]
          repeat' apply And.intro
          all_goals exact StableHlo.devRef_ne_of_ne (by decide)))
    _ = W2 m ρ c (Proc.devRef .tc main_arg1) := StableHlo.after_of_forall_not_mem (b := Proc.devRef .tc main_arg1) _ _ (List.forall_iff_forall_mem.mp (by
          simp only [List.Forall, StableHlo.nullary_writes, StableHlo.unary_writes, StableHlo.binary_writes, StableHlo.ternary_writes, StableHlo.quaternary_writes, StableHlo.reshape_writes, StableHlo.binaryIndexed_writes, StableHlo.TRef.unary, StableHlo.TRef.ternary, Finset.mem_singleton]
          repeat' apply And.intro
          all_goals exact StableHlo.devRef_ne_of_ne (by decide)))
    _ = W1 m ρ c (Proc.devRef .tc main_arg1) := W2_of_ne m ρ c main_arg1 (by decide) (by decide)
    _ = W0 m ρ c (Proc.devRef .tc main_arg1) := StableHlo.after_of_forall_not_mem (b := Proc.devRef .tc main_arg1) _ _ (List.forall_iff_forall_mem.mp (by
          simp only [List.Forall, StableHlo.nullary_writes, StableHlo.unary_writes, StableHlo.binary_writes, StableHlo.ternary_writes, StableHlo.quaternary_writes, StableHlo.reshape_writes, StableHlo.binaryIndexed_writes, StableHlo.TRef.unary, StableHlo.TRef.ternary, Finset.mem_singleton]
          repeat' apply And.intro
          all_goals exact StableHlo.devRef_ne_of_ne (by decide)))
    _ = m ((c : Thread nD τ).loc main_arg1) := rfl

/-! ## The proof data family, the thread state, the segments -/

abbrev adm : (p : Fin 1) → (pcfgs (F := F) p).Adm := fun p => (cfgs p).toPCfg_adm
def pdats : (p : Fin 1) → (c : Dev nD) → Dat τ (Elt F) Unit ℕ (UR sig nD τ) ℕ (Pipeline.pin (pcfgs (F := F)) adm p) c
  | ⟨0, _⟩ => fun c => dat0 (V1 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and the core owing
    nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

set_option backward.isDefEq.respectTransparency.types false in
/-- THE REGION over the thread state: entered from every unscoped buffer at the first stretch's contents, left at
    the exit contents. The arrays are dealt out of the unscoped buffers (the embedding array in two half shares) and
    put back; the generator register goes into the invariant and comes out; nothing is owed. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := arrays_of_bufs (V1 m ρ) c (V1 m ρ c) ((dat0 (V1 m ρ) c).arrAt · 0) (fun w => A_eq (V1 m ρ) c w)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := bufs_of_arrays (V1 m ρ) c (V1 m ρ c) (V2 m ρ c) ((dat0 (V1 m ρ) c).arrAt · cfg0.N) (hF0 m ρ c) (hrest0 m ρ c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-- @main's four segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .host (hseg hostOps1_1 hostOps1_1_sub hostOps1_1_fresh (W3 m ρ)) ]
theorem main_run (c : Dev nD) : main (F := F) c = Pipeline.Seg.run (segs m ρ) := (main_chain c).trans (by chain_rfl)

set_option backward.isDefEq.respectTransparency.types false in
/-- THE RUN, at any float instance: from any memory with zero counters every weakly fair execution of @main on the
    TensorCores terminates, nothing faulting; the result buffer ends at the last boundary's contents, and both
    argument arrays end as launched. -/
theorem run_main : θ_run defs (onTc (τ := τ) (main (F := F))) ⟨m, fun _ => 0, ρ⟩ (fun r => ∀ c : Dev nD,
      r.2.mem ((c.tc : Thread nD τ).loc main_v16) = W4 m ρ c (Proc.devRef .tc main_v16)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (W4 m ρ c) ∗ R c)
        ⊢ iprop(Tₙ m ρ c ∗ ∃ W, owes (c : Thread nD τ) (0 : CellTallies nD τ sig Unit) W)
      iintro ⟨Hh, Hp, HO⟩
      isplitr [HO]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v16 (by decide)),
        (h c _ (mem_uc main_arg0 (by decide))).trans (W4_main_arg0 m ρ c),
        (h c _ (mem_uc main_arg1 (by decide))).trans (W4_main_arg1 m ρ c)⟩)

end Cert.KernelIdeal.Hand

end
-- ==== Proof.LibRank2.lean ====
/- Rank-2 layout operations and reductions read at an index `(p, c)` given by its two coordinates: a vector
   `[a]` cast to the column `[a, 1]`; a column `[a, 1]` broadcast along the rows to `[a, b]`; the index a reduction
   along the second axis inserts its coordinate into; at the exact (extended-real) values, the lane sum and the lane
   maximum along the second axis, and a plain matrix product into the zero accumulator. -/
import Idealize.ShloMosaic.PureOps.Ideal
import Idealize.ShloMosaic.PureOps.Ideal.Laws
import Idealize.ShloMosaic.Lib.ValueIdx
import Idealize.ShloMosaic.Lib.ValueLayout

noncomputable section

namespace Cert.Rank2

open Idealize.ShloMosaic Idealize.ShloMosaic.ValueIdx
open scoped BigOperators

section Layout
variable {α : Type}

/-- An `[a]` vector cast to the column `[a, 1]` reads, at `(p, u)`, the operand at `p`. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

section Reductions
variable {φ : FTy}

/-- The index a reduction along the second axis inserts its coordinate into. -/
theorem lift_axis1 {a b : ℕ} (h : (⟨2, ![a, b]⟩ : Shape).Reduces [1] ⟨1, ![a]⟩) (p : Fin a) (c : Fin b) :
    h.lift (ix1 p) c = ix2 p c := by
  funext ax; apply Fin.ext
  match ax with
  | ⟨0, _⟩ => rfl
  | ⟨1, _⟩ => rfl

/-- A lane sum along the second axis of an `[a, b]` block, at row `p`: the sum over the row. -/
theorem multiReduction_add_axis1 {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ c : Fin b, src (ix2 p c) := by
  refine (Ideal.multiReduction_add_single src acc h hφ hacc (ix1 p)).trans ?_
  exact Finset.sum_congr rfl fun c _ => congrArg src (lift_axis1 h p c)

/-- A lane maximum along the second axis of an `[a, b]` block, at row `p`: the fold of `max` over the row,
    from the accumulator's value. -/
theorem multiReduction_maximumf_axis1 {a b : ℕ} (src : FVec Ideal ⟨2, ![a, b]⟩ φ) (acc : BitVec φ.bits)
    (h : (⟨2, ![a, b]⟩ : Shape).Reduces [1] ⟨1, ![a]⟩) (hφ : FKind.Formats φ)
    (hacc : acc = FKind.maximumf.neutral φ hφ) (p : Fin a) :
    multiReduction .maximumf [1] ⟨1, ![a]⟩ src acc h hφ hacc (ix1 p)
      = (Finset.univ : Finset (Fin b)).fold max (Ideal.ofBits φ acc) (fun c => src (ix2 p c)) := by
  refine (Ideal.multiReduction_maximumf_single src acc h hφ hacc (ix1 p)).trans ?_
  refine congrArg (fun f => (Finset.univ : Finset (Fin b)).fold max (Ideal.ofBits φ acc) f) ?_
  funext c
  exact congrArg src (lift_axis1 h p c)

end Reductions

section Matmul

/-- A plain `[m, k] × [k, n]` matrix product into the zero accumulator, read at `(a, b)`: the sum over the
    contracted coordinate of the products of the entries. -/
theorem matmul_plain_zero_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    FloatOps.matmul (⟨[1], [0], [0], [1], [], [], w⟩ : DotDims _ _ _) prec A B
        (constant (F := Ideal) ⟨2, ![m, n]⟩ .f32 0x00000000#32) (ix2 a b)
      = ∑ c : Fin k, A (ix2 a c) * B (ix2 c b) := by
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Matmul

end Cert.Rank2

end
-- ==== Proof.BodyLayout.lean ====
/- The rows of a block of 128 rows as rows of the array, and the rank-2 layout operations, reductions and the plain
   matrix product read at an index, under this namespace's names. -/
import proofs.«149726_j26061861552544_1_alg».proof.Proof.LibRank2

noncomputable section

namespace Cert.SupCon

open Idealize.ShloMosaic Idealize.ShloMosaic.ValueIdx
open scoped BigOperators

export Cert.Rank2 (shapeCast_a_a1_apply broadcastTo_a1_ab_apply lift_axis1 multiReduction_add_axis1
  multiReduction_maximumf_axis1 matmul_plain_zero_apply)

/-- Row `p` of the `b`-th block of 128 rows is row `128 b + p` of the array. -/
def blockRow (b : Fin 64) (p : Fin 128) : Fin 8192 := ⟨128 * b.val + p.val, by omega⟩

theorem blockRow_val (b : Fin 64) (p : Fin 128) : (blockRow b p).val = 128 * b.val + p.val := rfl

end Cert.SupCon

end
-- ==== Proof.KernBlocks.lean ====
/-
  The input windows' blocks, read at an entry, as entries of the arrays the region finds.

  At grid point t the query window's block is rows 128t … 128t+127 of the embedding array; the resident window's
  block is the whole embedding array at every point; the label column's and temperature column's blocks are rows
  128t … 128t+127 of their one-column arrays; the label row's block is the whole row. A block's element at
  coordinate y sits in the array at block index × block size + y on every axis; the block indices are decided once
  over the 64 points.
-/
import proofs.«149726_j26061861552544_1_alg».proof.Proof.KernRun
import proofs.«149726_j26061861552544_1_alg».proof.Proof.BodyLayout

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx
open Cert.SupCon (blockRow)

/-- The windows' index maps over the grid: which block each window is on at point `t`, and the point's coordinate. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = 0 ∧ win0_5.index t (1 : Fin 2) = t.val
    ∧ win0_6.index t (0 : Fin 2) = 0 ∧ win0_6.index t (1 : Fin 2) = t.val
    ∧ (grid0.coords t (0 : Fin 1)).val = t.val ∧ t.val < 64 :=
  (by decide +kernel : ∀ t : Fin grid0.N, _)

section Region
variable (V : (c : Dev nD) → (b : Ref sig .tc) → Buf (Elt F) ((c : Thread nD τ).loc b))

/-- The query block's entry (p, k) is the embedding array's entry (128t + p, k). -/
theorem iblk0_apply (c : Dev nD) (t : Fin cfg0.N) (p k : Fin 128) :
    iblk V c 0 t (ix2 p k) = V c main_arg0 (ix2 (blockRow (grid0.coords t 0) p) k) := by
  obtain ⟨e0, e1, -, -, -, -, -, -, -, -, -, -, -, -, ec, -⟩ := idx_facts t
  show V c main_arg0 (((cfg0.win 0).blk t).view.emb (ix2 p k)) = _
  refine congrArg (V c main_arg0) ?_
  funext a; apply Fin.ext
  match a with
  | ⟨0, _⟩ => show win0_0.index t (0 : Fin 2) * 128 + 1 * p.val = 128 * (grid0.coords t (0 : Fin 1)).val + p.val; omega
  | ⟨1, _⟩ => show win0_0.index t (1 : Fin 2) * 128 + 1 * k.val = k.val; omega

/-- The resident block is the whole embedding array. -/
theorem iblk1_apply (c : Dev nD) (t : Fin cfg0.N) (r : Fin 8192) (k : Fin 128) :
    iblk V c 1 t (ix2 r k) = V c main_arg0 (ix2 r k) := by
  obtain ⟨-, -, e0, e1, -⟩ := idx_facts t
  show V c main_arg0 (((cfg0.win 1).blk t).view.emb (ix2 r k)) = _
  refine congrArg (V c main_arg0) ?_
  funext a; apply Fin.ext
  match a with
  | ⟨0, _⟩ => show win0_1.index t (0 : Fin 2) * 8192 + 1 * r.val = r.val; omega
  | ⟨1, _⟩ => show win0_1.index t (1 : Fin 2) * 128 + 1 * k.val = k.val; omega

/-- The label column's block at (p, 0) is the column's entry (128t + p, 0). -/
theorem iblk2_apply (c : Dev nD) (t : Fin cfg0.N) (p : Fin 128) :
    iblk V c 2 t (ix2 p (0 : Fin 1)) = V c main_v7 (ix2 (blockRow (grid0.coords t 0) p) (0 : Fin 1)) := by
  obtain ⟨-, -, -, -, e0, e1, -, -, -, -, -, -, -, -, ec, -⟩ := idx_facts t
  show V c main_v7 (((cfg0.win 2).blk t).view.emb (ix2 p (0 : Fin 1))) = _
  refine congrArg (V c main_v7) ?_
  funext a; apply Fin.ext
  match a with
  | ⟨0, _⟩ => show win0_2.index t (0 : Fin 2) * 128 + 1 * p.val = 128 * (grid0.coords t (0 : Fin 1)).val + p.val; omega
  | ⟨1, _⟩ => show win0_2.index t (1 : Fin 2) * 1 + 1 * 0 = 0; omega

/-- The label row's block is the whole row. -/
theorem iblk3_apply (c : Dev nD) (t : Fin cfg0.N) (cc : Fin 8192) :
    iblk V c 3 t (ix2 (0 : Fin 1) cc) = V c main_v8 (ix2 (0 : Fin 1) cc) := by
  obtain ⟨-, -, -, -, -, -, e0, e1, -⟩ := idx_facts t
  show V c main_v8 (((cfg0.win 3).blk t).view.emb (ix2 (0 : Fin 1) cc)) = _
  refine congrArg (V c main_v8) ?_
  funext a; apply Fin.ext
  match a with
  | ⟨0, _⟩ => show win0_3.index t (0 : Fin 2) * 1 + 1 * 0 = 0; omega
  | ⟨1, _⟩ => show win0_3.index t (1 : Fin 2) * 8192 + 1 * cc.val = cc.val; omega

/-- The temperature column's block at (p, 0) is the column's entry (128t + p, 0). -/
theorem iblk4_apply (c : Dev nD) (t : Fin cfg0.N) (p : Fin 128) :
    iblk V c 4 t (ix2 p (0 : Fin 1)) = V c main_v9 (ix2 (blockRow (grid0.coords t 0) p) (0 : Fin 1)) := by
  obtain ⟨-, -, -, -, -, -, -, -, e0, e1, -, -, -, -, ec, -⟩ := idx_facts t
  show V c main_v9 (((cfg0.win 4).blk t).view.emb (ix2 p (0 : Fin 1))) = _
  refine congrArg (V c main_v9) ?_
  funext a; apply Fin.ext
  match a with
  | ⟨0, _⟩ => show win0_4.index t (0 : Fin 2) * 128 + 1 * p.val = 128 * (grid0.coords t (0 : Fin 1)).val + p.val; omega
  | ⟨1, _⟩ => show win0_4.index t (1 : Fin 2) * 1 + 1 * 0 = 0; omega

end Region

end Cert.KernelIdeal.Hand

end
-- ==== Proof.KernEntry.lean ====
/-
  What the region finds in its arrays: the arguments and three reshapes.

  The first host stretch gathers the per-row temperature from a three-entry table at each row's label and reshapes
  the labels to a column and to a row, and the temperatures to a column. It writes no argument. So at the region's
  entry the embedding array is as launched, the label column's entry (r, 0) and the label row's entry (0, r) are the
  label of row r, and the temperature column's entry (r, 0) is the gathered temperature of row r.
-/
import proofs.«149726_j26061861552544_1_alg».proof.Proof.KernBlocks

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ) (ρ : Dev nD → PrngReg)

/-- The per-row temperature: the three-entry table gathered at the label (a negative label taken modulo three
    once), as one function of the labels. -/
def temps (a1 : IVec S8192 32) : FVec F S8192 .f32 :=
  Host.gather gather_S3_S8192x1_S8192_n_0_n_n_0_1_1 (fun i => FloatOps.ofBits .f32 (lit0 (S3.rowMajor i)))
    (broadcastInDim S8192x1 ![0] bcast_S8192_S8192x1_0
      (select (cmpi .slt a1 (broadcastInDim S8192 ![] bcast_S_S8192 (constantI S_ 32 0#32)))
        (addi a1 (broadcastInDim S8192 ![] bcast_S_S8192 (constantI S_ 32 3#32))) a1))

theorem W1_arg0 (c : Dev nD) : V1 m ρ c main_arg0 = m ((c : Thread nD τ).loc main_arg0) :=
  (StableHlo.after_of_forall_not_mem (b := Proc.devRef .tc main_arg0) _ _ (List.forall_iff_forall_mem.mp (by
          simp only [List.Forall, StableHlo.nullary_writes, StableHlo.unary_writes, StableHlo.binary_writes, StableHlo.ternary_writes, StableHlo.quaternary_writes, StableHlo.reshape_writes, StableHlo.binaryIndexed_writes, StableHlo.TRef.unary, StableHlo.TRef.ternary, Finset.mem_singleton]
          repeat' apply And.intro
          all_goals exact StableHlo.devRef_ne_of_ne (by decide)))).trans rfl

theorem W1_v6 (c : Dev nD) : (V1 m ρ c main_v6 : S8192.Idx → Elt F .f32) = temps (F := F) (m ((c : Thread nD τ).loc main_arg1)) := by
  show StableHlo.after hostOps0 (W0 m ρ c) (Proc.devRef .tc main_v6) = _
  after_results; rfl

/-- A vector cast to a one-row matrix reads, at (0, k), the vector at k. -/
theorem shapeCast_row_apply {α : Type} {a : ℕ} (x : (⟨1, ![a]⟩ : Shape).Idx → α)
    (h : (⟨1, ![a]⟩ : Shape).ShapeCasts ⟨2, ![1, a]⟩) (u : Fin 1) (k : Fin a) :
    shapeCast ⟨2, ![1, a]⟩ x h (ix2 u k) = x (ix1 k) :=
  shapeCast_apply x h _ _ (by
    have hu : u.val = 0 := by omega
    rw [Shape.rowMajor_val_two, Shape.rowMajor_val_one]
    show k.val = u.val * a + k.val
    rw [hu, Nat.zero_mul, Nat.zero_add])

theorem W1_v7_apply (c : Dev nD) (r : Fin 8192) :
    V1 m ρ c main_v7 (ix2 r (0 : Fin 1)) = m ((c : Thread nD τ).loc main_arg1) (ix1 r) := by
  have e : (V1 m ρ c main_v7 : S8192x1.Idx → Elt F .i32) = shapeCast S8192x1 (m ((c : Thread nD τ).loc main_arg1)) shapeCasts_S8192_S8192x1 := by
    show StableHlo.after hostOps0 (W0 m ρ c) (Proc.devRef .tc main_v7) = _
    after_results; rfl
  rw [e]; exact Cert.SupCon.shapeCast_a_a1_apply _ _ r 0

theorem W1_v8_apply (c : Dev nD) (k : Fin 8192) :
    V1 m ρ c main_v8 (ix2 (0 : Fin 1) k) = m ((c : Thread nD τ).loc main_arg1) (ix1 k) := by
  have e : (V1 m ρ c main_v8 : S1x8192.Idx → Elt F .i32) = shapeCast S1x8192 (m ((c : Thread nD τ).loc main_arg1)) shapeCasts_S8192_S1x8192 := by
    show StableHlo.after hostOps0 (W0 m ρ c) (Proc.devRef .tc main_v8) = _
    after_results; rfl
  rw [e]; exact shapeCast_row_apply _ _ 0 k

theorem W1_v9_apply (c : Dev nD) (r : Fin 8192) :
    V1 m ρ c main_v9 (ix2 r (0 : Fin 1)) = temps (F := F) (m ((c : Thread nD τ).loc main_arg1)) (ix1 r) := by
  have e : (V1 m ρ c main_v9 : S8192x1.Idx → Elt F .f32) = shapeCast S8192x1 (temps (F := F) (m ((c : Thread nD τ).loc main_arg1))) shapeCasts_S8192_S8192x1 := by
    show StableHlo.after hostOps0 (W0 m ρ c) (Proc.devRef .tc main_v9) = _
    after_results; rfl
  rw [e]; exact Cert.SupCon.shapeCast_a_a1_apply _ _ r 0

end Cert.KernelIdeal.Hand

end
-- ==== Proof.Spec.lean ====
/- The class-balanced supervised-contrastive loss as one function of its argument arrays, read at the
   exact (extended-real) values: every quantity is a function of literal row / column numbers. Both programs
   are shown to compute `result`. -/
import Idealize.ShloMosaic.PureOps.Ideal
import Idealize.ShloMosaic.PureOps.Ideal.Laws
import Idealize.ShloMosaic.Lib.ValueIdx

noncomputable section

namespace Cert.SupCon

open Idealize.ShloMosaic Idealize.ShloMosaic.ValueIdx
open scoped BigOperators

variable (x : (⟨2, ![8192, 128]⟩ : Shape).Idx → EReal)
  (lab : (⟨1, ![8192]⟩ : Shape).Idx → BitVec 32)
  (T : (⟨1, ![8192]⟩ : Shape).Idx → EReal)

/-- The similarity of rows `r` and `c`: the inner product of the two embeddings. -/
def sim (r c : Fin 8192) : EReal := ∑ k : Fin 128, x (ix2 r k) * x (ix2 c k)

/-- The similarity divided by the row's temperature. -/
def logit (r c : Fin 8192) : EReal := Ideal.div (sim x r c) (T (ix1 r))

/-- The row's maximum logit (folded from minus infinity). -/
def rowMax (r : Fin 8192) : EReal :=
  (Finset.univ : Finset (Fin 8192)).fold max (Ideal.ofBits .f32 0xFF800000#32) (fun c => logit x T r c)

/-- The shifted logit. -/
def z (r c : Fin 8192) : EReal := logit x T r c - rowMax x T r

/-- The row's normaliser: the sum of the exponentials plus the small constant. -/
def denom (r : Fin 8192) : EReal := (∑ c : Fin 8192, Ideal.exp (z x T r c)) + Ideal.ofBits .f32 0x322BCC77#32

/-- The log-probability. -/
def logp (r c : Fin 8192) : EReal := z x T r c - Ideal.log (denom x T r)

/-- Rows `r` and `c` carry the same label. -/
def same (r c : Fin 8192) : EReal := if lab (ix1 r) = lab (ix1 c) then 1 else 0

/-- Off the diagonal. -/
def notSelf (r c : Fin 8192) : EReal := if r = c then 0 else 1

/-- The positives mask. -/
def pmask (r c : Fin 8192) : EReal := same lab r c * notSelf r c

/-- The number of positives of row `r`. -/
def pcount (r : Fin 8192) : EReal := ∑ c : Fin 8192, pmask lab r c

/-- The masked sum of the log-probabilities. -/
def numer (r : Fin 8192) : EReal := ∑ c : Fin 8192, pmask lab r c * logp x T r c

/-- The row's loss: zero for a row without positives. -/
def lossRow (r : Fin 8192) : EReal :=
  if Ideal.ofBits .f32 0x00000000#32 < pcount lab r then
    Ideal.div
      ((Ideal.ofBits .f32 0x00000000#32 - Ideal.div (Ideal.ofBits .f32 0x3D8F5C29#32) (T (ix1 r))) * numer x lab T r)
      (pcount lab r + Ideal.ofBits .f32 0x322BCC77#32)
  else Ideal.ofBits .f32 0x00000000#32

/-- The row counts: it has a positive. -/
def validRow (r : Fin 8192) : EReal :=
  if Ideal.ofBits .f32 0x00000000#32 < pcount lab r then 1 else 0

/-- The sum of the rows' losses. -/
def total : EReal := ∑ r : Fin 8192, lossRow x lab T r

/-- The number of rows that count. -/
def nvalid : EReal := ∑ r : Fin 8192, validRow lab r

/-- The loss: the mean of the rows' losses over the rows that count, zero when none does. -/
def result : EReal :=
  if Ideal.ofBits .f32 0x00000000#32 < nvalid lab then
    Ideal.div (total x lab T) (max (nvalid lab) (Ideal.ofBits .f32 0x3F800000#32))
  else Ideal.ofBits .f32 0x00000000#32

end Cert.SupCon

end
-- ==== Proof.BodyMask.lean ====
/- The positives mask and the positives count of the kernel body, read at an index: the mask is the product of
   "same label" and "not the same row" as 0 / 1, the count is its sum along the row. -/
import proofs.«149726_j26061861552544_1_alg».proof.Proof.Gen.KernelIdeal.Skeleton
import proofs.«149726_j26061861552544_1_alg».proof.Proof.Spec
import proofs.«149726_j26061861552544_1_alg».proof.Proof.BodyLayout

noncomputable section

namespace Cert.SupCon

open Idealize.ShloMosaic Idealize.ShloMosaic.ValueIdx Cert.KernelIdeal Cert.KernelIdeal.Gen
open scoped BigOperators

/-! ## Integer operations at an index, and a condition converted to a float -/

theorem cmpi_apply {s : Shape} {w : ℕ} (pr : CmpIPredicate) (x y : IVec s w) (j : s.Idx) :
    cmpi pr x y j = IntOp.cmpi pr (x j) (y j) := rfl

theorem addi_apply {s : Shape} {w : ℕ} (x y : IVec s w) (j : s.Idx) :
    addi x y j = IntOp.addi (x j) (y j) := rfl

/-- A condition widened to a word and converted signed is `1` where the condition holds and `0` elsewhere. -/
theorem sitofp_setWidth_bit (b : BitVec 1) :
    (FloatOps.sitofp (F := Ideal) .f32 (b.setWidth 32) : EReal) = if b = 1#1 then 1 else 0 := by
  show ((((b.setWidth 32).toInt : ℝ)) : EReal) = _
  rcases BitVec.eq_zero_or_eq_one b with rfl | rfl
  · have h : ((0#1).setWidth 32).toInt = 0 := by decide
    rw [h, if_neg (by decide)]; simp
  · have h : ((1#1).setWidth 32).toInt = 1 := by decide
    rw [h, if_pos rfl]; simp

theorem cmpi_eq_one_iff (x y : BitVec 32) : IntOp.cmpi .eq x y = 1#1 ↔ x = y := by
  show BitVec.ofBool (x == y) = 1#1 ↔ x = y
  by_cases h : x = y
  · subst h
    rw [beq_self_eq_true]
    exact ⟨fun _ => rfl, fun _ => rfl⟩
  · rw [beq_eq_false_iff_ne.mpr h]
    exact ⟨fun h' => absurd h' (by decide), fun h' => absurd h' h⟩

theorem cmpi_ne_one_iff (x y : BitVec 32) : IntOp.cmpi .ne x y = 1#1 ↔ x ≠ y := by
  show BitVec.ofBool (x != y) = 1#1 ↔ x ≠ y
  by_cases h : x = y
  · subst h
    rw [bne_self_eq_false]
    exact ⟨fun h' => absurd h' (by decide), fun h' => absurd rfl h'⟩
  · rw [bne_iff_ne.mpr h]
    exact ⟨fun _ => h, fun _ => rfl⟩

/-- The word of a block's row number differs from the word of a column number exactly when the numbers differ:
    nothing wraps below `2 ^ 32`. -/
theorem rowWord_ne_iff (b : Fin 64) (p : Fin 128) (c : Fin 8192) :
    IntOp.addi (Scalar.muli (BitVec.ofNat 32 b.val) 128#32) (BitVec.ofNat 32 p.val) ≠ BitVec.ofNat 32 c.val
      ↔ blockRow b p ≠ c := by
  have hb := b.isLt; have hp := p.isLt; have hc := c.isLt
  have e : IntOp.addi (Scalar.muli (BitVec.ofNat 32 b.val) 128#32) (BitVec.ofNat 32 p.val)
      = BitVec.ofNat 32 (128 * b.val + p.val) := by
    apply BitVec.eq_of_toNat_eq
    show ((BitVec.ofNat 32 b.val * 128#32) + BitVec.ofNat 32 p.val).toNat = _
    simp only [BitVec.toNat_add, BitVec.toNat_mul, BitVec.toNat_ofNat]
    omega
  rw [e]
  constructor
  · intro h hr
    apply h
    rw [← hr]; rfl
  · intro h hw
    apply h
    apply Fin.ext
    have := congrArg BitVec.toNat hw
    simp only [BitVec.toNat_ofNat] at this
    show 128 * b.val + p.val = c.val
    omega

/-! ## The mask and the count -/

/-- The kernel's mask at `(p, c)`, in the words it compares. -/
theorem pay7_words (i : grid0.Coords) (v22 : Vec Ideal S128x1 .i32) (v24 : Vec Ideal S1x8192 .i32)
    (p : Fin 128) (c : Fin 8192) :
    k0_pay7 (F := Ideal) i v22 v24 (ix2 p c)
      = (if v22 (ix2 p (0 : Fin 1)) = v24 (ix2 (0 : Fin 1) c) then (1 : EReal) else 0)
        * (if blockRow (i 0) p = c then (0 : EReal) else 1) := by
  unfold k0_pay7
  dsimp only
  rw [mulf_apply, sitofp_apply, sitofp_apply, extui_apply, extui_apply, cmpi_apply, cmpi_apply,
    sitofp_setWidth_bit, sitofp_setWidth_bit]
  rw [broadcastTo_a1_ab_apply, broadcastTo_1b_ab_apply, broadcastTo_a1_ab_apply, broadcastTo_1b_ab_apply,
    shapeCast_self, shapeCast_self, addi_apply, broadcast_apply]
  rw [iota_single_apply, iota_single_apply]
  have hrow : (IntOp.cmpi .ne (IntOp.addi (Scalar.muli (BitVec.ofNat 32 (i 0).val) 128#32)
        (BitVec.ofNat 32 ((ix2 p (0 : Fin 1) : S128x1.Idx) 0).val))
      (BitVec.ofNat 32 ((ix2 (0 : Fin 1) c : S1x8192.Idx) 1).val) = 1#1) ↔ ¬ blockRow (i 0) p = c := by
    rw [cmpi_ne_one_iff]
    exact rowWord_ne_iff (i 0) p c
  congr 1
  · exact if_congr (cmpi_eq_one_iff _ _) rfl rfl
  · rw [if_congr hrow rfl rfl, ite_not]

/-- The kernel's mask at `(p, c)` is the positives mask of the block's row `p` at column `c`. -/
theorem pay7_apply (lab : (⟨1, ![8192]⟩ : Shape).Idx → BitVec 32)
    (i : grid0.Coords) (v22 : Vec Ideal S128x1 .i32) (v24 : Vec Ideal S1x8192 .i32)
    (h22 : ∀ p : Fin 128, v22 (ix2 p (0 : Fin 1)) = lab (ix1 (blockRow (i 0) p)))
    (h24 : ∀ c : Fin 8192, v24 (ix2 (0 : Fin 1) c) = lab (ix1 c))
    (p : Fin 128) (c : Fin 8192) :
    k0_pay7 (F := Ideal) i v22 v24 (ix2 p c) = pmask lab (blockRow (i 0) p) c := by
  rw [pay7_words, h22, h24]
  rfl

/-- The kernel's count at row `p` is the positives count of the block's row `p`. -/
theorem pay8_apply (lab : (⟨1, ![8192]⟩ : Shape).Idx → BitVec 32)
    (i : grid0.Coords) (v22 : Vec Ideal S128x1 .i32) (v24 : Vec Ideal S1x8192 .i32)
    (h22 : ∀ p : Fin 128, v22 (ix2 p (0 : Fin 1)) = lab (ix1 (blockRow (i 0) p)))
    (h24 : ∀ c : Fin 8192, v24 (ix2 (0 : Fin 1) c) = lab (ix1 c))
    (p : Fin 128) :
    k0_pay8 (F := Ideal) i v22 v24 (ix1 p) = pcount lab (blockRow (i 0) p) := by
  unfold k0_pay8
  refine (multiReduction_add_axis1 (k0_pay7 (F := Ideal) i v22 v24) 0x00000000#32 reduces_S128x8192_S128
    (.inl rfl) rfl p).trans ?_
  exact Finset.sum_congr rfl fun c _ => pay7_apply lab i v22 v24 h22 h24 p c

end Cert.SupCon

end
-- ==== Proof.BodyLogits.lean ====
/- The log-probabilities of the kernel body, read at an index: the block's row against every row of the array,
   divided by the row's temperature, shifted by the row's maximum and normalised by the logarithm of the row's sum. -/
import proofs.«149726_j26061861552544_1_alg».proof.Proof.Gen.KernelIdeal.Skeleton
import proofs.«149726_j26061861552544_1_alg».proof.Proof.Spec
import proofs.«149726_j26061861552544_1_alg».proof.Proof.BodyLayout

noncomputable section

namespace Cert.SupCon

open Idealize.ShloMosaic Idealize.ShloMosaic.ValueIdx Cert.KernelIdeal Cert.KernelIdeal.Gen
open scoped BigOperators

theorem exp_apply {s : Shape} {φ : FTy} (a : FVec Ideal s φ) (j : s.Idx) : exp a j = Ideal.exp (a j) := rfl
theorem log_apply {s : Shape} {φ : FTy} (a : FVec Ideal s φ) (j : s.Idx) : log a j = Ideal.log (a j) := rfl

/-- The body's logits: the block against the whole array, over the block's temperatures. -/
def bodyLogit (v0 : Vec Ideal S128x128 .f32) (v2 : Vec Ideal S8192x128 .f32) (v6 : Vec Ideal S128x1 .f32) :
    FVec Ideal S128x8192 .f32 :=
  divf (matmul dot_S128x128_S128x8192_S128x8192_1_0_0_1_n_n none (truncf .bf16 v0 bitsLt_bf16_f32)
      (transpose S128x8192 [1, 0] (truncf .bf16 v2 bitsLt_bf16_f32) transposes_S8192x128_p1_0_S128x8192)
      (constant S128x8192 .f32 0x00000000#32))
    (broadcastTo S128x8192 (k0_pay5 v6) broadcasts_S128x1_S128x8192)

/-- The body's shifted logits. -/
def bodyZ (v0 : Vec Ideal S128x128 .f32) (v2 : Vec Ideal S8192x128 .f32) (v6 : Vec Ideal S128x1 .f32) :
    FVec Ideal S128x8192 .f32 :=
  subf (bodyLogit v0 v2 v6)
    (broadcastTo S128x8192
      (shapeCast S128x1
        (multiReduction .maximumf [1] S128 (bodyLogit v0 v2 v6) 0xFF800000#32 reduces_S128x8192_S128 (.inl rfl) rfl)
        shapeCasts_S128_S128x1)
      broadcasts_S128x1_S128x8192)

/-- The body's log-probabilities are the shifted logits less the logarithm of the row's normaliser. -/
theorem pay6_eq (v0 : Vec Ideal S128x128 .f32) (v2 : Vec Ideal S8192x128 .f32) (v6 : Vec Ideal S128x1 .f32) :
    k0_pay6 (F := Ideal) v0 v2 v6
      = subf (bodyZ v0 v2 v6)
          (broadcastTo S128x8192
            (log (addf
              (shapeCast S128x1
                (multiReduction .add [1] S128 (exp (bodyZ v0 v2 v6)) 0x00000000#32 reduces_S128x8192_S128 (.inl rfl) rfl)
                shapeCasts_S128_S128x1)
              (broadcast S128x1 (Scalar.ofBits .f32 0x322BCC77#32))))
            broadcasts_S128x1_S128x8192) := rfl

variable (x : (⟨2, ![8192, 128]⟩ : Shape).Idx → EReal) (T : (⟨1, ![8192]⟩ : Shape).Idx → EReal)

/-- The body's logit at `(p, c)` is the logit of the array's row `r` against row `c`, when the block's row `p` is
    the array's row `r`. -/
theorem bodyLogit_apply (v0 : Vec Ideal S128x128 .f32) (v2 : Vec Ideal S8192x128 .f32) (v6 : Vec Ideal S128x1 .f32)
    (p : Fin 128) (r : Fin 8192)
    (h0 : ∀ k : Fin 128, v0 (ix2 p k) = x (ix2 r k))
    (h2 : ∀ (c : Fin 8192) (k : Fin 128), v2 (ix2 c k) = x (ix2 c k))
    (h6 : v6 (ix2 p (0 : Fin 1)) = T (ix1 r)) (c : Fin 8192) :
    bodyLogit v0 v2 v6 (ix2 p c) = logit x T r c := by
  unfold bodyLogit
  rw [divf_apply]
  have hm : matmul dot_S128x128_S128x8192_S128x8192_1_0_0_1_n_n none (truncf .bf16 v0 bitsLt_bf16_f32)
      (transpose S128x8192 [1, 0] (truncf .bf16 v2 bitsLt_bf16_f32) transposes_S8192x128_p1_0_S128x8192)
      (constant (F := Ideal) S128x8192 .f32 0x00000000#32) (ix2 p c) = sim x r c := by
    refine (matmul_plain_zero_apply dot_S128x128_S128x8192_S128x8192_1_0_0_1_n_n_wf none
      (truncf .bf16 v0 bitsLt_bf16_f32)
      (transpose S128x8192 [1, 0] (truncf .bf16 v2 bitsLt_bf16_f32) transposes_S8192x128_p1_0_S128x8192) p c).trans ?_
    refine Finset.sum_congr rfl fun k _ => ?_
    rw [truncf_apply, transpose_ix2_apply, truncf_apply, h0, h2]
  have hb : broadcastTo S128x8192 (k0_pay5 (F := Ideal) v6) broadcasts_S128x1_S128x8192 (ix2 p c) = T (ix1 r) := by
    unfold k0_pay5
    rw [broadcastTo_a1_ab_apply, shapeCast_self, h6]
  rw [hm, hb]
  rfl

/-- The body's shifted logit at `(p, c)`. -/
theorem bodyZ_apply (v0 : Vec Ideal S128x128 .f32) (v2 : Vec Ideal S8192x128 .f32) (v6 : Vec Ideal S128x1 .f32)
    (p : Fin 128) (r : Fin 8192)
    (h0 : ∀ k : Fin 128, v0 (ix2 p k) = x (ix2 r k))
    (h2 : ∀ (c : Fin 8192) (k : Fin 128), v2 (ix2 c k) = x (ix2 c k))
    (h6 : v6 (ix2 p (0 : Fin 1)) = T (ix1 r)) (c : Fin 8192) :
    bodyZ v0 v2 v6 (ix2 p c) = z x T r c := by
  unfold bodyZ
  rw [subf_apply, broadcastTo_a1_ab_apply, shapeCast_a_a1_apply, bodyLogit_apply x T v0 v2 v6 p r h0 h2 h6 c]
  have hmax : multiReduction .maximumf [1] S128 (bodyLogit v0 v2 v6) 0xFF800000#32 reduces_S128x8192_S128 (.inl rfl) rfl
      (ix1 p) = rowMax x T r := by
    refine (multiReduction_maximumf_axis1 (bodyLogit v0 v2 v6) 0xFF800000#32 reduces_S128x8192_S128 (.inl rfl) rfl
      p).trans ?_
    unfold rowMax
    refine congrArg (fun f => (Finset.univ : Finset (Fin 8192)).fold max (Ideal.ofBits .f32 0xFF800000#32) f) ?_
    funext c'
    exact bodyLogit_apply x T v0 v2 v6 p r h0 h2 h6 c'
  rw [hmax]
  rfl

/-- The body's log-probability at `(p, c)` is the log-probability of the array's row `r` at column `c`. -/
theorem pay6_apply (v0 : Vec Ideal S128x128 .f32) (v2 : Vec Ideal S8192x128 .f32) (v6 : Vec Ideal S128x1 .f32)
    (p : Fin 128) (r : Fin 8192)
    (h0 : ∀ k : Fin 128, v0 (ix2 p k) = x (ix2 r k))
    (h2 : ∀ (c : Fin 8192) (k : Fin 128), v2 (ix2 c k) = x (ix2 c k))
    (h6 : v6 (ix2 p (0 : Fin 1)) = T (ix1 r)) (c : Fin 8192) :
    k0_pay6 (F := Ideal) v0 v2 v6 (ix2 p c) = logp x T r c := by
  rw [pay6_eq, subf_apply, broadcastTo_a1_ab_apply, log_apply, addf_apply, shapeCast_a_a1_apply, broadcast_apply,
    bodyZ_apply x T v0 v2 v6 p r h0 h2 h6 c]
  have hsum : multiReduction .add [1] S128 (exp (bodyZ v0 v2 v6)) 0x00000000#32 reduces_S128x8192_S128 (.inl rfl) rfl
      (ix1 p) = ∑ c' : Fin 8192, Ideal.exp (z x T r c') := by
    refine (multiReduction_add_axis1 (exp (bodyZ v0 v2 v6)) 0x00000000#32 reduces_S128x8192_S128 (.inl rfl) rfl
      p).trans ?_
    refine Finset.sum_congr rfl fun c' _ => ?_
    rw [exp_apply, bodyZ_apply x T v0 v2 v6 p r h0 h2 h6 c']
  rw [hsum]
  rfl

end Cert.SupCon

end
-- ==== Proof.BodyLoss.lean ====
/- The two values the kernel body stores for a block of 128 rows, read at an index: the rows' losses and the
   rows' "has a positive" indicators. -/
import proofs.«149726_j26061861552544_1_alg».proof.Proof.BodyMask
import proofs.«149726_j26061861552544_1_alg».proof.Proof.BodyLogits

noncomputable section

namespace Cert.SupCon

open Idealize.ShloMosaic Idealize.ShloMosaic.ValueIdx Cert.KernelIdeal Cert.KernelIdeal.Gen
open scoped BigOperators

/-- The bit of a decided proposition is `1` exactly when it holds. -/
theorem ofBool_decide_eq_one_iff (P : Prop) [Decidable P] : BitVec.ofBool (decide P) = 1#1 ↔ P := by
  by_cases h : P
  · rw [decide_eq_true h]; exact ⟨fun _ => h, fun _ => rfl⟩
  · rw [decide_eq_false h]; exact ⟨fun h' => absurd h' (by decide), fun h' => absurd h' h⟩

/-- The count as a column. -/
theorem pay1_apply (v42 : FVec Ideal S128 .f32) (j : Fin 128) (u : Fin 1) :
    k0_pay1 (F := Ideal) v42 (ix2 j u) = v42 (ix1 j) := by
  unfold k0_pay1
  exact shapeCast_a_a1_apply v42 shapeCasts_S128_S128x1 j u

/-- The test "the count is positive" at row `j`. -/
theorem pay2_apply (v42 : FVec Ideal S128 .f32) (j : Fin 128) :
    k0_pay2 (F := Ideal) v42 (ix2 j (0 : Fin 1)) = 1#1 ↔ Ideal.ofBits .f32 0x00000000#32 < v42 (ix1 j) := by
  unfold k0_pay2
  rw [cmpf_apply, pay1_apply, broadcast_apply]
  exact ofBool_decide_eq_one_iff _

variable (x : (⟨2, ![8192, 128]⟩ : Shape).Idx → EReal)
  (lab : (⟨1, ![8192]⟩ : Shape).Idx → BitVec 32)
  (T : (⟨1, ![8192]⟩ : Shape).Idx → EReal)

/-- The stored loss at lane `j` is the loss of the array's row `r`, when the block's row `j` is that row. -/
theorem pay3_apply (v7 : FVec Ideal S128x1 .f32) (v21 v41 : FVec Ideal S128x8192 .f32) (v42 : FVec Ideal S128 .f32)
    (j : Fin 128) (r : Fin 8192)
    (h7 : v7 (ix2 j (0 : Fin 1)) = T (ix1 r))
    (h21 : ∀ c : Fin 8192, v21 (ix2 j c) = logp x T r c)
    (h41 : ∀ c : Fin 8192, v41 (ix2 j c) = pmask lab r c)
    (h42 : v42 (ix1 j) = pcount lab r) :
    k0_pay3 (F := Ideal) v7 v21 v41 v42 (ix2 (0 : Fin 1) j) = lossRow x lab T r := by
  unfold k0_pay3
  rw [transpose_ix2_apply, select_apply]
  have hnum : multiReduction .add [1] S128 (mulf v41 v21) 0x00000000#32 reduces_S128x8192_S128 (.inl rfl) rfl (ix1 j)
      = numer x lab T r := by
    refine (multiReduction_add_axis1 (mulf v41 v21) 0x00000000#32 reduces_S128x8192_S128 (.inl rfl) rfl j).trans ?_
    unfold numer
    refine Finset.sum_congr rfl fun c _ => ?_
    rw [mulf_apply, h41, h21]
  rw [divf_apply, mulf_apply, subf_apply, divf_apply, addf_apply, shapeCast_a_a1_apply, hnum, pay1_apply, h42, h7]
  unfold lossRow
  by_cases hpos : Ideal.ofBits .f32 0x00000000#32 < pcount lab r
  · have hc : k0_pay2 (F := Ideal) v42 (ix2 j (0 : Fin 1)) = 1#1 := (pay2_apply v42 j).mpr (h42 ▸ hpos)
    rw [hc, select_one, if_pos hpos]
    rfl
  · have hc : k0_pay2 (F := Ideal) v42 (ix2 j (0 : Fin 1)) = 0#1 :=
      eq_zero_of_ne_one fun h => hpos (h42 ▸ (pay2_apply v42 j).mp h)
    rw [hc, select_zero, if_neg hpos]
    rfl

/-- The stored indicator at lane `j` is "row `r` has a positive". -/
theorem pay4_apply (v42 : FVec Ideal S128 .f32) (j : Fin 128) (r : Fin 8192)
    (h42 : v42 (ix1 j) = pcount lab r) :
    k0_pay4 (F := Ideal) v42 (ix2 (0 : Fin 1) j) = validRow lab r := by
  unfold k0_pay4
  rw [transpose_ix2_apply, sitofp_apply, extui_apply, sitofp_setWidth_bit]
  unfold validRow
  exact if_congr ((pay2_apply v42 j).trans (by rw [h42])) rfl rfl

/-! ## The body's two stored values, from the blocks it loads -/

section Stored
variable (i : grid0.Coords) (v0 : Vec Ideal S128x128 .f32) (v2 : Vec Ideal S8192x128 .f32) (v6 : Vec Ideal S128x1 .f32)
  (v22 : Vec Ideal S128x1 .i32) (v24 : Vec Ideal S1x8192 .i32)
  (h0 : ∀ (p : Fin 128) (k : Fin 128), v0 (ix2 p k) = x (ix2 (blockRow (i 0) p) k))
  (h2 : ∀ (c : Fin 8192) (k : Fin 128), v2 (ix2 c k) = x (ix2 c k))
  (h6 : ∀ p : Fin 128, v6 (ix2 p (0 : Fin 1)) = T (ix1 (blockRow (i 0) p)))
  (h22 : ∀ p : Fin 128, v22 (ix2 p (0 : Fin 1)) = lab (ix1 (blockRow (i 0) p)))
  (h24 : ∀ c : Fin 8192, v24 (ix2 (0 : Fin 1) c) = lab (ix1 c))
include h0 h2 h6 h22 h24

/-- The first stored value: the losses of the block's rows. -/
theorem body_loss (j : Fin 128) :
    k0_pay3 (F := Ideal) (k0_pay5 v6) (k0_pay6 v0 v2 v6) (k0_pay7 i v22 v24) (k0_pay8 i v22 v24) (ix2 (0 : Fin 1) j)
      = lossRow x lab T (blockRow (i 0) j) := by
  refine pay3_apply x lab T _ _ _ _ j (blockRow (i 0) j) ?_ ?_ ?_ ?_
  · unfold k0_pay5
    rw [shapeCast_self]
    exact h6 j
  · exact fun c => pay6_apply x T v0 v2 v6 j (blockRow (i 0) j) (h0 j) h2 (h6 j) c
  · exact fun c => pay7_apply lab i v22 v24 h22 h24 j c
  · exact pay8_apply lab i v22 v24 h22 h24 j

omit h0 h2 h6 in
/-- The second stored value: which of the block's rows have a positive. -/
theorem body_valid (j : Fin 128) :
    k0_pay4 (F := Ideal) (k0_pay8 i v22 v24) (ix2 (0 : Fin 1) j) = validRow lab (blockRow (i 0) j) :=
  pay4_apply lab _ j (blockRow (i 0) j) (pay8_apply lab i v22 v24 h22 h24 j)

end Stored

end Cert.SupCon

end
-- ==== Proof.BodyTail.lean ====
/- The host's closing operations on the two stored arrays: the sum of the rows' losses, the number of rows that
   count, and the guarded mean. -/
import proofs.«149726_j26061861552544_1_alg».proof.KernelIdeal
import proofs.«149726_j26061861552544_1_alg».proof.Proof.Spec
import proofs.«149726_j26061861552544_1_alg».proof.Proof.BodyLayout

noncomputable section

namespace Cert.SupCon

open Idealize.ShloMosaic Idealize.ShloMosaic.ValueIdx Cert.KernelIdeal
open scoped BigOperators

/-- The bit of a decided proposition is `1` exactly when the proposition holds. -/
theorem bit_decide_eq_one_iff (P : Prop) [Decidable P] : BitVec.ofBool (decide P) = 1#1 ↔ P := by
  by_cases h : P
  · rw [decide_eq_true h]; exact ⟨fun _ => h, fun _ => rfl⟩
  · rw [decide_eq_false h]; exact ⟨fun h' => absurd h' (by decide), fun h' => absurd h' h⟩

/-- The host's sum of a one-row array over both axes, from the zero word: the sum of the row. -/
theorem hostSum_row (A : FVec Ideal S1x8192 .f32) (g : Fin 8192 → EReal)
    (hA : ∀ c : Fin 8192, A (ix2 (0 : Fin 1) c) = g c)
    (hr : S1x8192.ReducesTo [0, 1] S_) (hu : 0 < S_.numel) (j : S_.Idx) :
    Host.reduceAdd A (constant (F := Ideal) S_ .f32 0#32) hr hu j = ∑ c : Fin 8192, g c := by
  show Ideal.hostReduceAdd hr A (Ideal.ofBits .f32 0x00000000#32) j = _
  rw [Ideal.hostReduceAdd_total hr (fun b => b.elim0) A _ j, Ideal.ofBits_zero_f32, zero_add, sum_idx2,
    Fin.sum_univ_one]
  exact Finset.sum_congr rfl fun c _ => hA c

variable (x : (⟨2, ![8192, 128]⟩ : Shape).Idx → EReal)
  (lab : (⟨1, ![8192]⟩ : Shape).Idx → BitVec 32)
  (T : (⟨1, ![8192]⟩ : Shape).Idx → EReal)

/-- From the array of the rows' losses and the array of the rows' indicators, the host's closing operations
    compute the loss. -/
theorem tail_eq (Lw Vw : FVec Ideal S1x8192 .f32)
    (hL : ∀ c : Fin 8192, Lw (ix2 (0 : Fin 1) c) = lossRow x lab T c)
    (hV : ∀ c : Fin 8192, Vw (ix2 (0 : Fin 1) c) = validRow lab c)
    (hr : S1x8192.ReducesTo [0, 1] S_) (hu : 0 < S_.numel) :
    (select (cmpf CmpFPredicate.ogt (Host.reduceAdd Vw (constant S_ FTy.f32 0#32) hr hu) (constant S_ FTy.f32 0#32))
      (Host.divf (Host.reduceAdd Lw (constant S_ FTy.f32 0#32) hr hu)
        (maximumf (Host.reduceAdd Vw (constant S_ FTy.f32 0#32) hr hu) (constant S_ FTy.f32 1065353216#32)))
      (constant S_ FTy.f32 0#32) : FVec Ideal S_ .f32) = fun _ => result x lab T := by
  funext j
  have hn : Host.reduceAdd Vw (constant (F := Ideal) S_ .f32 0#32) hr hu j = nvalid lab :=
    hostSum_row Vw (fun c => validRow lab c) hV hr hu j
  have ht : Host.reduceAdd Lw (constant (F := Ideal) S_ .f32 0#32) hr hu j = total x lab T :=
    hostSum_row Lw (fun c => lossRow x lab T c) hL hr hu j
  rw [select_apply, cmpf_apply]
  show Scalar.select (Ideal.cmp .ogt (Host.reduceAdd Vw (constant (F := Ideal) S_ .f32 0#32) hr hu j)
        (Ideal.ofBits .f32 0x00000000#32))
      (Ideal.div (Host.reduceAdd Lw (constant (F := Ideal) S_ .f32 0#32) hr hu j)
        (max (Host.reduceAdd Vw (constant (F := Ideal) S_ .f32 0#32) hr hu j) (Ideal.ofBits .f32 0x3F800000#32)))
      (Ideal.ofBits .f32 0x00000000#32) = _
  rw [hn, ht]
  unfold result
  have hbit : Ideal.cmp .ogt (nvalid lab) (Ideal.ofBits .f32 0x00000000#32) = 1#1
      ↔ Ideal.ofBits .f32 0x00000000#32 < nvalid lab := bit_decide_eq_one_iff _
  by_cases hpos : Ideal.ofBits .f32 0x00000000#32 < nvalid lab
  · rw [hbit.mpr hpos, select_one, if_pos hpos]
  · rw [eq_zero_of_ne_one fun h => hpos (hbit.mp h), select_zero, if_neg hpos]

end Cert.SupCon

end
-- ==== Proof.KernFinal.lean ====
/-
  The kernel program's result at the ideal values is the specification of the loss.

  At grid point t the two output rows hold the loss and the validity flag of rows 128t … 128t+127 (the body's
  arithmetic read at an index, over the blocks read as array entries). The 64 blocks of an output tile its one-row
  array, so after the run its entry (0, r) is the loss, respectively the flag, of row r. The closing host operations
  sum both rows and divide: the result is the mean loss over the rows that have a positive.
-/
import proofs.«149726_j26061861552544_1_alg».proof.Proof.KernEntry
import proofs.«149726_j26061861552544_1_alg».proof.Proof.BodyLoss
import proofs.«149726_j26061861552544_1_alg».proof.Proof.BodyTail

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open Cert.SupCon

variable (m : (ℓ : Loc nD τ sig) → Buf (Elt Ideal) ℓ) (ρ : Dev nD → PrngReg)

/-- The arguments as arrays of extended reals and words, and the per-row temperature. -/
abbrev xOf (c : Dev nD) : (⟨2, ![8192, 128]⟩ : Shape).Idx → EReal := m ((c : Thread nD τ).loc main_arg0)
abbrev labOf (c : Dev nD) : (⟨1, ![8192]⟩ : Shape).Idx → BitVec 32 := m ((c : Thread nD τ).loc main_arg1)
abbrev TOf (c : Dev nD) : (⟨1, ![8192]⟩ : Shape).Idx → EReal := temps (F := Ideal) (m ((c : Thread nD τ).loc main_arg1))

/-- The one-row arrays of per-row losses and validity flags. -/
def lossArr (c : Dev nD) : S1x8192.Idx → EReal := fun idx => lossRow (xOf m c) (labOf m c) (TOf m c) ⟨(idx 1).val, (idx 1).isLt⟩
def validArr (c : Dev nD) : S1x8192.Idx → EReal := fun idx => validRow (labOf m c) ⟨(idx 1).val, (idx 1).isLt⟩

theorem hz : (![0, 0] : Fin 2 → Nat) = fun _ => 0 := funext fun a => by fin_cases a <;> rfl

/-! ## The blocks at point `t`, as the specification's arrays -/

theorem h0 (c : Dev nD) (t : Fin cfg0.N) (p k : Fin 128) :
    iblk (V1 m ρ) c 0 t (ix2 p k) = xOf m c (ix2 (blockRow (grid0.coords t 0) p) k) := by
  rw [iblk0_apply, W1_arg0]
theorem h2 (c : Dev nD) (t : Fin cfg0.N) (r : Fin 8192) (k : Fin 128) :
    iblk (V1 m ρ) c 1 t (ix2 r k) = xOf m c (ix2 r k) := by
  rw [iblk1_apply, W1_arg0]
theorem h22 (c : Dev nD) (t : Fin cfg0.N) (p : Fin 128) :
    iblk (V1 m ρ) c 2 t (ix2 p (0 : Fin 1)) = labOf m c (ix1 (blockRow (grid0.coords t 0) p)) := by
  rw [iblk2_apply, W1_v7_apply]
theorem h24 (c : Dev nD) (t : Fin cfg0.N) (k : Fin 8192) :
    iblk (V1 m ρ) c 3 t (ix2 (0 : Fin 1) k) = labOf m c (ix1 k) := by
  rw [iblk3_apply, W1_v8_apply]
theorem h6 (c : Dev nD) (t : Fin cfg0.N) (p : Fin 128) :
    iblk (V1 m ρ) c 4 t (ix2 p (0 : Fin 1)) = TOf m c (ix1 (blockRow (grid0.coords t 0) p)) := by
  rw [iblk4_apply, W1_v9_apply]

/-! ## What point `t` writes back -/

/-- An index of a one-row array is in point `t`'s block iff each coordinate is in the block's range. -/
theorem mem_blk5 (t : Fin cfg0.N) (i : S1x8192.Idx) :
    i ∈ ((cfg0.win 5).blk t).view.set ↔ ∀ a : Fin 2, win0_5.index t a * S1x128.size a ≤ (i a).val ∧ (i a).val < win0_5.index t a * S1x128.size a + S1x128.size a := by
  show i ∈ ((View.whole main_v10_0).slice (win0_5.rect t)).set ↔ _
  rw [View.set_slice_whole, Rect.mem_set_unit]
  exact Iff.rfl
theorem mem_blk6 (t : Fin cfg0.N) (i : S1x8192.Idx) :
    i ∈ ((cfg0.win 6).blk t).view.set ↔ ∀ a : Fin 2, win0_6.index t a * S1x128.size a ≤ (i a).val ∧ (i a).val < win0_6.index t a * S1x128.size a + S1x128.size a := by
  show i ∈ ((View.whole main_v10_1).slice (win0_6.rect t)).set ↔ _
  rw [View.set_slice_whole, Rect.mem_set_unit]
  exact Iff.rfl

theorem flushed5_eq (c : Dev nD) (t : Fin cfg0.N) :
    (dat0 (V1 m ρ) c).flushed 5 t = ((cfg0.win 5).blk t).view.read (Elt Ideal) (lossArr m c) := by
  show (cfg0.win 5).cut (grid0.coords t) ((dat0 (V1 m ρ) c).after 5 t) = _
  rw [after5]
  unfold lossRowOf
  rw [View.canon_unit_zero hz]
  simp only [View.ld_unit_zero (S := S128x128) hz, View.ld_unit_zero (S := S8192x128) hz, View.ld_unit_zero (S := S128x1) hz,
    View.ld_unit_zero (S := S1x8192) hz]
  obtain ⟨-, -, -, -, -, -, -, -, -, -, e0, e1, -, -, ec, -⟩ := idx_facts t
  funext y
  obtain ⟨u, j, rfl⟩ : ∃ (u : Fin 1) (j : Fin 128), y = ix2 u j := ⟨y 0, y 1, eq_ix2 y⟩
  obtain rfl : u = 0 := Subsingleton.elim _ _
  refine (body_loss (xOf m c) (labOf m c) (TOf m c) (grid0.coords t) _ _ _ _ _ (h0 m ρ c t) (h2 m ρ c t) (h6 m ρ c t) (h22 m ρ c t) (h24 m ρ c t) j).trans ?_
  show _ = lossRow (xOf m c) (labOf m c) (TOf m c) ⟨(((cfg0.win 5).blk t).view.emb (ix2 (0 : Fin 1) j) 1).val, _⟩
  refine congrArg (lossRow (xOf m c) (labOf m c) (TOf m c)) (Fin.ext ?_)
  show 128 * (grid0.coords t (0 : Fin 1)).val + j.val = win0_5.index t (1 : Fin 2) * 128 + 1 * j.val
  omega

theorem flushed6_eq (c : Dev nD) (t : Fin cfg0.N) :
    (dat0 (V1 m ρ) c).flushed 6 t = ((cfg0.win 6).blk t).view.read (Elt Ideal) (validArr m c) := by
  show (cfg0.win 6).cut (grid0.coords t) ((dat0 (V1 m ρ) c).after 6 t) = _
  rw [after6]
  unfold validRowOf
  rw [View.canon_unit_zero hz]
  simp only [View.ld_unit_zero (S := S128x1) hz, View.ld_unit_zero (S := S1x8192) hz]
  obtain ⟨-, -, -, -, -, -, -, -, -, -, -, -, e0, e1, ec, -⟩ := idx_facts t
  funext y
  obtain ⟨u, j, rfl⟩ : ∃ (u : Fin 1) (j : Fin 128), y = ix2 u j := ⟨y 0, y 1, eq_ix2 y⟩
  obtain rfl : u = 0 := Subsingleton.elim _ _
  refine (body_valid (labOf m c) (grid0.coords t) _ _ (h22 m ρ c t) (h24 m ρ c t) j).trans ?_
  show _ = validRow (labOf m c) ⟨(((cfg0.win 6).blk t).view.emb (ix2 (0 : Fin 1) j) 1).val, _⟩
  refine congrArg (validRow (labOf m c)) (Fin.ext ?_)
  show 128 * (grid0.coords t (0 : Fin 1)).val + j.val = win0_6.index t (1 : Fin 2) * 128 + 1 * j.val
  omega

/-! ## The blocks tile the row -/

/-- The point whose block holds column `k`. -/
def pointOf (k : Nat) (hk : k < 8192) : Fin cfg0.N := ⟨k / 128, by show k / 128 < grid0.N; rw [N_0]; omega⟩

theorem cover5 (i : S1x8192.Idx) : ∃ t : Fin cfg0.N, (cfg0.win 5).flush t = true ∧ i ∈ ((cfg0.win 5).blk t).view.set := by
  have hi0 : (i 0).val < 1 := (i 0).isLt
  have hi1 : (i 1).val < 8192 := (i 1).isLt
  refine ⟨pointOf (i 1).val hi1, flush0_5 _, ?_⟩
  obtain ⟨-, -, -, -, -, -, -, -, -, -, e0, e1, -⟩ := idx_facts (pointOf (i 1).val hi1)
  have ht : (pointOf (i 1).val hi1).val = (i 1).val / 128 := rfl
  rw [mem_blk5]
  intro a
  match a with
  | ⟨0, _⟩ => show win0_5.index _ (0 : Fin 2) * 1 ≤ (i 0).val ∧ (i 0).val < win0_5.index _ (0 : Fin 2) * 1 + 1; omega
  | ⟨1, _⟩ => show win0_5.index _ (1 : Fin 2) * 128 ≤ (i 1).val ∧ (i 1).val < win0_5.index _ (1 : Fin 2) * 128 + 128; omega

theorem cover6 (i : S1x8192.Idx) : ∃ t : Fin cfg0.N, (cfg0.win 6).flush t = true ∧ i ∈ ((cfg0.win 6).blk t).view.set := by
  have hi0 : (i 0).val < 1 := (i 0).isLt
  have hi1 : (i 1).val < 8192 := (i 1).isLt
  refine ⟨pointOf (i 1).val hi1, flush0_6 _, ?_⟩
  obtain ⟨-, -, -, -, -, -, -, -, -, -, -, -, e0, e1, -⟩ := idx_facts (pointOf (i 1).val hi1)
  have ht : (pointOf (i 1).val hi1).val = (i 1).val / 128 := rfl
  rw [mem_blk6]
  intro a
  match a with
  | ⟨0, _⟩ => show win0_6.index _ (0 : Fin 2) * 1 ≤ (i 0).val ∧ (i 0).val < win0_6.index _ (0 : Fin 2) * 1 + 1; omega
  | ⟨1, _⟩ => show win0_6.index _ (1 : Fin 2) * 128 ≤ (i 1).val ∧ (i 1).val < win0_6.index _ (1 : Fin 2) * 128 + 128; omega

/-- The result arrays after the run. -/
theorem final5 (c : Dev nD) : (dat0 (V1 m ρ) c).arrAt 5 cfg0.N = lossArr m c :=
  (dat0 (V1 m ρ) c).arrAt_eq_of_cover 5 (lossArr m c) (fun t _ => flushed5_eq m ρ c t) cover5
theorem final6 (c : Dev nD) : (dat0 (V1 m ρ) c).arrAt 6 cfg0.N = validArr m c :=
  (dat0 (V1 m ρ) c).arrAt_eq_of_cover 6 (validArr m c) (fun t _ => flushed6_eq m ρ c t) cover6

/-! ## The closing host operations -/

/-- The result buffer's last contents: the specification of the arguments. -/
theorem result_eq (c : Dev nD) :
    (W4 m ρ c (Proc.devRef .tc main_v16) : S_.Idx → EReal) = fun _ => result (xOf m c) (labOf m c) (TOf m c) := by
  show StableHlo.after hostOps1_1 (StableHlo.after hostOps1 (W2 m ρ c)) (Proc.devRef .tc main_v16) = _
  after_results
  rw [W2_v10_0, W2_v10_1, final5, final6]
  exact tail_eq (xOf m c) (labOf m c) (TOf m c) (lossArr m c) (validArr m c) (fun k => rfl) (fun k => rfl) _ _

/-- THE VALUE RUN at the ideal instance: the result buffer ends at the specification, the arguments unchanged. -/
theorem run_value : θ_run defs (onTc (τ := τ) (main (F := Ideal))) ⟨m, fun _ => 0, ρ⟩ (fun r => ∀ c : Dev nD,
      r.2.mem ((c.tc : Thread nD τ).loc main_v16) = (fun _ => result (xOf m c) (labOf m c) (TOf m c))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c).1.trans (result_eq m ρ c), (h c).2⟩) (run_main (F := Ideal) m ρ)

end Cert.KernelIdeal.Hand

end
-- ==== Proof.RefRun.lean ====
/- The reference program's @main read as a straight line of host operations: the two windows it is
   printed in and the two module-local selections it calls are one list of eighty-one operations, and
   every weakly fair execution ends with each buffer at the fold of that list over the launch contents. -/
import proofs.«149726_j26061861552544_1_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- @main's operations in order; each selection `where(c, a, 0)` is written out where it is called:
    the zero converted to its own type, broadcast (for the row-wise one), and the select. -/
abbrev ops : List (HloOp τ sig (Elt F)) :=
  [
    nullary main_cst (fun i => FloatOps.ofBits .f32 (lit0 (S3.rowMajor i))),
    nullary main_c (constantI S_ 32 0#32),
    unary main_c main_v0 (broadcastInDim S8192 ![] bcast_S_S8192 : (⟨S_, .i32⟩ : BufTy).Contents (Elt F) → (⟨S8192, .i32⟩ : BufTy).Contents (Elt F)),
    binary main_arg1 main_v0 main_v1 (cmpi .slt : (⟨S8192, .i32⟩ : BufTy).Contents (Elt F) → (⟨S8192, .i32⟩ : BufTy).Contents (Elt F) → (⟨S8192, .i1⟩ : BufTy).Contents (Elt F)),
    nullary main_c_0 (constantI S_ 32 3#32),
    unary main_c_0 main_v2 (broadcastInDim S8192 ![] bcast_S_S8192 : (⟨S_, .i32⟩ : BufTy).Contents (Elt F) → (⟨S8192, .i32⟩ : BufTy).Contents (Elt F)),
    binary main_arg1 main_v2 main_v3 (addi : (⟨S8192, .i32⟩ : BufTy).Contents (Elt F) → (⟨S8192, .i32⟩ : BufTy).Contents (Elt F) → (⟨S8192, .i32⟩ : BufTy).Contents (Elt F)),
    ternary main_v1 main_v3 main_arg1 main_v4 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v4 main_v5 (broadcastInDim S8192x1 ![0] bcast_S8192_S8192x1_0 : (⟨S8192, .i32⟩ : BufTy).Contents (Elt F) → (⟨S8192x1, .i32⟩ : BufTy).Contents (Elt F)),
    binary main_cst main_v5 main_v6 ((fun x i => Host.gather gather_S3_S8192x1_S8192_n_0_n_n_0_1_1 x i) : (⟨S3, .f32⟩ : BufTy).Contents (Elt F) → (⟨S8192x1, .i32⟩ : BufTy).Contents (Elt F) → (⟨S8192, .f32⟩ : BufTy).Contents (Elt F)),
    unary main_arg0 main_v7 ((transpose S128x8192 [1, 0] · transposes_S8192x128_S128x8192_1_0) : (⟨S8192x128, .f32⟩ : BufTy).Contents (Elt F) → (⟨S128x8192, .f32⟩ : BufTy).Contents (Elt F)),
    binary main_arg0 main_v7 main_v8 ((fun l r => Host.dotGeneral dot_S8192x128_S128x8192_S8192x8192_1_0_0_1_n_n none l r) : (⟨S8192x128, .f32⟩ : BufTy).Contents (Elt F) → (⟨S128x8192, .f32⟩ : BufTy).Contents (Elt F) → (⟨S8192x8192, .f32⟩ : BufTy).Contents (Elt F)),
    unary main_v6 main_v9 (broadcastInDim S8192x1 ![0] bcast_S8192_S8192x1_0 : (⟨S8192, .f32⟩ : BufTy).Contents (Elt F) → (⟨S8192x1, .f32⟩ : BufTy).Contents (Elt F)),
    unary main_v9 main_v10 (broadcastInDim S8192x8192 ![0, 1] bcast_S8192x1_S8192x8192_0_1 : (⟨S8192x1, .f32⟩ : BufTy).Contents (Elt F) → (⟨S8192x8192, .f32⟩ : BufTy).Contents (Elt F)),
    binary main_v8 main_v10 main_v11 (Host.divf : (⟨S8192x8192, .f32⟩ : BufTy).Contents (Elt F) → (⟨S8192x8192, .f32⟩ : BufTy).Contents (Elt F) → (⟨S8192x8192, .f32⟩ : BufTy).Contents (Elt F)),
    nullary main_cst_1 (constant S_ .f32 0xFF800000#32),
    binary main_v11 main_cst_1 main_v12 ((fun x v => Host.reduce FloatOps.maximumf x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    unary main_v12 main_v13 (broadcastInDim S8192x1 ![0] bcast_S8192_S8192x1_0 : (⟨S8192, .f32⟩ : BufTy).Contents (Elt F) → (⟨S8192x1, .f32⟩ : BufTy).Contents (Elt F)),
    unary main_v13 main_v14 (broadcastInDim S8192x8192 ![0, 1] bcast_S8192x1_S8192x8192_0_1 : (⟨S8192x1, .f32⟩ : BufTy).Contents (Elt F) → (⟨S8192x8192, .f32⟩ : BufTy).Contents (Elt F)),
    binary main_v11 main_v14 main_v15 (subf : (⟨S8192x8192, .f32⟩ : BufTy).Contents (Elt F) → (⟨S8192x8192, .f32⟩ : BufTy).Contents (Elt F) → (⟨S8192x8192, .f32⟩ : BufTy).Contents (Elt F)),
    unary main_v15 main_v16 (Host.exp : (⟨S8192x8192, .f32⟩ : BufTy).Contents (Elt F) → (⟨S8192x8192, .f32⟩ : BufTy).Contents (Elt F)),
    nullary main_cst_2 (constant S_ .f32 0x00000000#32),
    binary main_v16 main_cst_2 main_v17 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    unary main_v17 main_v18 (broadcastInDim S8192x1 ![0] bcast_S8192_S8192x1_0 : (⟨S8192, .f32⟩ : BufTy).Contents (Elt F) → (⟨S8192x1, .f32⟩ : BufTy).Contents (Elt F)),
    nullary main_cst_3 (constant S_ .f32 0x322BCC77#32),
    unary main_cst_3 main_v19 (broadcastInDim S8192x1 ![] bcast_S_S8192x1 : (⟨S_, .f32⟩ : BufTy).Contents (Elt F) → (⟨S8192x1, .f32⟩ : BufTy).Contents (Elt F)),
    binary main_v18 main_v19 main_v20 (addf : (⟨S8192x1, .f32⟩ : BufTy).Contents (Elt F) → (⟨S8192x1, .f32⟩ : BufTy).Contents (Elt F) → (⟨S8192x1, .f32⟩ : BufTy).Contents (Elt F)),
    unary main_v20 main_v21 (Host.log : (⟨S8192x1, .f32⟩ : BufTy).Contents (Elt F) → (⟨S8192x1, .f32⟩ : BufTy).Contents (Elt F)),
    unary main_v21 main_v22 (broadcastInDim S8192x8192 ![0, 1] bcast_S8192x1_S8192x8192_0_1 : (⟨S8192x1, .f32⟩ : BufTy).Contents (Elt F) → (⟨S8192x8192, .f32⟩ : BufTy).Contents (Elt F)),
    binary main_v15 main_v22 main_v23 (subf : (⟨S8192x8192, .f32⟩ : BufTy).Contents (Elt F) → (⟨S8192x8192, .f32⟩ : BufTy).Contents (Elt F) → (⟨S8192x8192, .f32⟩ : BufTy).Contents (Elt F)),
    unary main_arg1 main_v24 (broadcastInDim S8192x1 ![0] bcast_S8192_S8192x1_0 : (⟨S8192, .i32⟩ : BufTy).Contents (Elt F) → (⟨S8192x1, .i32⟩ : BufTy).Contents (Elt F)),
    unary main_arg1 main_v25 (broadcastInDim S1x8192 ![1] bcast_S8192_S1x8192_1 : (⟨S8192, .i32⟩ : BufTy).Contents (Elt F) → (⟨S1x8192, .i32⟩ : BufTy).Contents (Elt F)),
    unary main_v24 main_v26 (broadcastInDim S8192x8192 ![0, 1] bcast_S8192x1_S8192x8192_0_1 : (⟨S8192x1, .i32⟩ : BufTy).Contents (Elt F) → (⟨S8192x8192, .i32⟩ : BufTy).Contents (Elt F)),
    unary main_v25 main_v27 (broadcastInDim S8192x8192 ![0, 1] bcast_S1x8192_S8192x8192_0_1 : (⟨S1x8192, .i32⟩ : BufTy).Contents (Elt F) → (⟨S8192x8192, .i32⟩ : BufTy).Contents (Elt F)),
    binary main_v26 main_v27 main_v28 (cmpi .eq : (⟨S8192x8192, .i32⟩ : BufTy).Contents (Elt F) → (⟨S8192x8192, .i32⟩ : BufTy).Contents (Elt F) → (⟨S8192x8192, .i1⟩ : BufTy).Contents (Elt F)),
    unary main_v28 main_v29 (uitofp .f32 : (⟨S8192x8192, .i1⟩ : BufTy).Contents (Elt F) → (⟨S8192x8192, .f32⟩ : BufTy).Contents (Elt F)),
    nullary main_v30 (iotaInDim S8192x8192 32 0),
    nullary main_v31 (iotaInDim S8192x8192 32 1),
    nullary main_c_4 (constantI S_ 32 0#32),
    unary main_c_4 main_v32 (broadcastInDim S8192x8192 ![] bcast_S_S8192x8192 : (⟨S_, .i32⟩ : BufTy).Contents (Elt F) → (⟨S8192x8192, .i32⟩ : BufTy).Contents (Elt F)),
    binary main_v30 main_v32 main_v33 (addi : (⟨S8192x8192, .i32⟩ : BufTy).Contents (Elt F) → (⟨S8192x8192, .i32⟩ : BufTy).Contents (Elt F) → (⟨S8192x8192, .i32⟩ : BufTy).Contents (Elt F)),
    binary main_v33 main_v31 main_v34 (cmpi .eq : (⟨S8192x8192, .i32⟩ : BufTy).Contents (Elt F) → (⟨S8192x8192, .i32⟩ : BufTy).Contents (Elt F) → (⟨S8192x8192, .i1⟩ : BufTy).Contents (Elt F)),
    unary main_v34 main_v35 (uitofp .f32 : (⟨S8192x8192, .i1⟩ : BufTy).Contents (Elt F) → (⟨S8192x8192, .f32⟩ : BufTy).Contents (Elt F)),
    nullary main_cst_5 (constant S_ .f32 0x3F800000#32),
    unary main_cst_5 main_v36 (broadcastInDim S8192x8192 ![] bcast_S_S8192x8192 : (⟨S_, .f32⟩ : BufTy).Contents (Elt F) → (⟨S8192x8192, .f32⟩ : BufTy).Contents (Elt F)),
    binary main_v36 main_v35 main_v37 (subf : (⟨S8192x8192, .f32⟩ : BufTy).Contents (Elt F) → (⟨S8192x8192, .f32⟩ : BufTy).Contents (Elt F) → (⟨S8192x8192, .f32⟩ : BufTy).Contents (Elt F)),
    binary main_v29 main_v37 main_v38 (mulf : (⟨S8192x8192, .f32⟩ : BufTy).Contents (Elt F) → (⟨S8192x8192, .f32⟩ : BufTy).Contents (Elt F) → (⟨S8192x8192, .f32⟩ : BufTy).Contents (Elt F)),
    nullary main_cst_6 (constant S_ .f32 0x00000000#32),
    binary main_v38 main_cst_6 main_v39 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    nullary main_cst_7 (constant S_ .f32 0x00000000#32),
    unary main_cst_7 main_v40 (broadcastInDim S8192 ![] bcast_S_S8192 : (⟨S_, .f32⟩ : BufTy).Contents (Elt F) → (⟨S8192, .f32⟩ : BufTy).Contents (Elt F)),
    binary main_v39 main_v40 main_v41 (cmpf .ogt : (⟨S8192, .f32⟩ : BufTy).Contents (Elt F) → (⟨S8192, .f32⟩ : BufTy).Contents (Elt F) → (⟨S8192, .i1⟩ : BufTy).Contents (Elt F)),
    nullary main_cst_8 (constant S_ .f32 0x3D8F5C29#32),
    unary main_cst_8 main_v42 (broadcastInDim S8192 ![] bcast_S_S8192 : (⟨S_, .f32⟩ : BufTy).Contents (Elt F) → (⟨S8192, .f32⟩ : BufTy).Contents (Elt F)),
    binary main_v42 main_v6 main_v43 (Host.divf : (⟨S8192, .f32⟩ : BufTy).Contents (Elt F) → (⟨S8192, .f32⟩ : BufTy).Contents (Elt F) → (⟨S8192, .f32⟩ : BufTy).Contents (Elt F)),
    unary main_v43 main_v44 (Host.negf : (⟨S8192, .f32⟩ : BufTy).Contents (Elt F) → (⟨S8192, .f32⟩ : BufTy).Contents (Elt F)),
    binary main_v38 main_v23 main_v45 (mulf : (⟨S8192x8192, .f32⟩ : BufTy).Contents (Elt F) → (⟨S8192x8192, .f32⟩ : BufTy).Contents (Elt F) → (⟨S8192x8192, .f32⟩ : BufTy).Contents (Elt F)),
    nullary main_cst_9 (constant S_ .f32 0x00000000#32),
    binary main_v45 main_cst_9 main_v46 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    binary main_v44 main_v46 main_v47 (mulf : (⟨S8192, .f32⟩ : BufTy).Contents (Elt F) → (⟨S8192, .f32⟩ : BufTy).Contents (Elt F) → (⟨S8192, .f32⟩ : BufTy).Contents (Elt F)),
    nullary main_cst_10 (constant S_ .f32 0x322BCC77#32),
    unary main_cst_10 main_v48 (broadcastInDim S8192 ![] bcast_S_S8192 : (⟨S_, .f32⟩ : BufTy).Contents (Elt F) → (⟨S8192, .f32⟩ : BufTy).Contents (Elt F)),
    binary main_v39 main_v48 main_v49 (addf : (⟨S8192, .f32⟩ : BufTy).Contents (Elt F) → (⟨S8192, .f32⟩ : BufTy).Contents (Elt F) → (⟨S8192, .f32⟩ : BufTy).Contents (Elt F)),
    binary main_v47 main_v49 main_v50 (Host.divf : (⟨S8192, .f32⟩ : BufTy).Contents (Elt F) → (⟨S8192, .f32⟩ : BufTy).Contents (Elt F) → (⟨S8192, .f32⟩ : BufTy).Contents (Elt F)),
    unary main_v41 main_v51 (uitofp .f32 : (⟨S8192, .i1⟩ : BufTy).Contents (Elt F) → (⟨S8192, .f32⟩ : BufTy).Contents (Elt F)),
    nullary main_cst_11 (constant S_ .f32 0x00000000#32),
    binary main_v51 main_cst_11 main_v52 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    nullary main_cst_12 (constant S_ .f32 0x00000000#32),
    TRef.unary (.of main_cst_12 : TRef sig ⟨S_, .f32⟩) main_call0.v0 id,
    TRef.unary main_call0.v0 main_call0.v1 (broadcastInDim S8192 ![] bcast_S_S8192),
    TRef.ternary (.of main_v41 : TRef sig ⟨S8192, .i1⟩) (.of main_v50 : TRef sig ⟨S8192, .f32⟩) main_call0.v1 main_call0.v2 select,
    nullary main_cst_13 (constant S_ .f32 0x00000000#32),
    binary main_v53 main_cst_13 main_v54 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    nullary main_cst_14 (constant S_ .f32 0x00000000#32),
    binary main_v52 main_cst_14 main_v55 (cmpf .ogt : (⟨S_, .f32⟩ : BufTy).Contents (Elt F) → (⟨S_, .f32⟩ : BufTy).Contents (Elt F) → (⟨S_, .i1⟩ : BufTy).Contents (Elt F)),
    nullary main_cst_15 (constant S_ .f32 0x3F800000#32),
    binary main_v52 main_cst_15 main_v56 (maximumf : (⟨S_, .f32⟩ : BufTy).Contents (Elt F) → (⟨S_, .f32⟩ : BufTy).Contents (Elt F) → (⟨S_, .f32⟩ : BufTy).Contents (Elt F)),
    binary main_v54 main_v56 main_v57 (Host.divf : (⟨S_, .f32⟩ : BufTy).Contents (Elt F) → (⟨S_, .f32⟩ : BufTy).Contents (Elt F) → (⟨S_, .f32⟩ : BufTy).Contents (Elt F)),
    nullary main_cst_16 (constant S_ .f32 0x00000000#32),
    TRef.unary (.of main_cst_16 : TRef sig ⟨S_, .f32⟩) main_call1.v0 id,
    TRef.ternary (.of main_v55 : TRef sig ⟨S_, .i1⟩) (.of main_v57 : TRef sig ⟨S_, .f32⟩) main_call1.v0 main_call1.v1 select ]

set_option maxHeartbeats 8000000 in
/-- @main is that straight line once its two windows and the two called bodies are unfolded and the
    sequencing is reassociated. -/
theorem main_eq (c : Dev nD) : main (F := F) c = seq ops := by
  simp only [main, main_part0, main_part1, fn_where.body, fn_where_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., unary_bufs_sub .., unary_bufs_sub .., binary_bufs_sub .., nullary_bufs_sub .., binary_bufs_sub .., unary_bufs_sub .., unary_bufs_sub .., binary_bufs_sub .., unary_bufs_sub .., nullary_bufs_sub .., binary_bufs_sub .., unary_bufs_sub .., nullary_bufs_sub .., unary_bufs_sub .., binary_bufs_sub .., unary_bufs_sub .., unary_bufs_sub .., binary_bufs_sub .., unary_bufs_sub .., unary_bufs_sub .., unary_bufs_sub .., unary_bufs_sub .., binary_bufs_sub .., unary_bufs_sub .., nullary_bufs_sub .., nullary_bufs_sub .., nullary_bufs_sub .., unary_bufs_sub .., binary_bufs_sub .., binary_bufs_sub .., unary_bufs_sub .., nullary_bufs_sub .., unary_bufs_sub .., binary_bufs_sub .., binary_bufs_sub .., nullary_bufs_sub .., binary_bufs_sub .., nullary_bufs_sub .., unary_bufs_sub .., binary_bufs_sub .., nullary_bufs_sub .., unary_bufs_sub .., binary_bufs_sub .., unary_bufs_sub .., binary_bufs_sub .., nullary_bufs_sub .., binary_bufs_sub .., binary_bufs_sub .., nullary_bufs_sub .., unary_bufs_sub .., binary_bufs_sub .., binary_bufs_sub .., unary_bufs_sub .., nullary_bufs_sub .., binary_bufs_sub .., nullary_bufs_sub .., unary_bufs_sub .., unary_bufs_sub .., ternary_bufs_sub .., nullary_bufs_sub .., binary_bufs_sub .., nullary_bufs_sub .., binary_bufs_sub .., nullary_bufs_sub .., binary_bufs_sub .., binary_bufs_sub .., nullary_bufs_sub .., unary_bufs_sub .., ternary_bufs_sub ..⟩

/-- From any memory with zero counters every weakly fair execution of @main terminates, and each buffer
    ends at the fold of the operations over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefValue

end
-- ==== Proof.RefStages.lean ====
/- The reference's result as named stages, and its run: every weakly fair execution of @main ends with
   the result buffer at the last stage of the argument arrays, the arguments unchanged. -/
import proofs.«149726_j26061861552544_1_alg».proof.Proof.RefRun

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-! ## The stages

Each is the composed term of the operations that produce one buffer, as a function of the embeddings
`a0`, the labels `a1` and the per-row temperatures `t` (the gathered table entries). -/

/-- The per-row temperature: the three-entry table gathered at the label (a negative label taken
    modulo three once). -/
def temps (a1 : IVec S8192 32) : FVec F S8192 .f32 :=
  Host.gather gather_S3_S8192x1_S8192_n_0_n_n_0_1_1 (fun i => FloatOps.ofBits .f32 (lit0 (S3.rowMajor i)))
    (broadcastInDim S8192x1 ![0] bcast_S8192_S8192x1_0
      (select (cmpi .slt a1 (broadcastInDim S8192 ![] bcast_S_S8192 (constantI S_ 32 0#32)))
        (addi a1 (broadcastInDim S8192 ![] bcast_S_S8192 (constantI S_ 32 3#32))) a1))

/-- Similarity of every pair of rows over its row's temperature. -/
def logits (a0 : FVec F S8192x128 .f32) (t : FVec F S8192 .f32) : FVec F S8192x8192 .f32 :=
  Host.divf (Host.dotGeneral dot_S8192x128_S128x8192_S8192x8192_1_0_0_1_n_n none a0
      (transpose S128x8192 [1, 0] a0 transposes_S8192x128_S128x8192_1_0))
    (broadcastInDim S8192x8192 ![0, 1] bcast_S8192x1_S8192x8192_0_1 (broadcastInDim S8192x1 ![0] bcast_S8192_S8192x1_0 t))

/-- The row maximum of the logits. -/
def rowMax (a0 : FVec F S8192x128 .f32) (t : FVec F S8192 .f32) : FVec F S8192 .f32 :=
  Host.reduce FloatOps.maximumf (logits a0 t) (constant S_ .f32 0xFF800000#32) reducesTo_S8192x8192_S8192_d1 h_S_

/-- The logits shifted by their row maximum. -/
def shifted (a0 : FVec F S8192x128 .f32) (t : FVec F S8192 .f32) : FVec F S8192x8192 .f32 :=
  subf (logits a0 t) (broadcastInDim S8192x8192 ![0, 1] bcast_S8192x1_S8192x8192_0_1 (broadcastInDim S8192x1 ![0] bcast_S8192_S8192x1_0 (rowMax a0 t)))

/-- The logarithm of the row's sum of exponentials plus the small constant. -/
def logDenom (a0 : FVec F S8192x128 .f32) (t : FVec F S8192 .f32) : FVec F S8192x1 .f32 :=
  Host.log (addf (broadcastInDim S8192x1 ![0] bcast_S8192_S8192x1_0 (Host.reduceAdd (Host.exp (shifted a0 t)) (constant S_ .f32 0x00000000#32) reducesTo_S8192x8192_S8192_d1 h_S_))
    (broadcastInDim S8192x1 ![] bcast_S_S8192x1 (constant S_ .f32 0x322BCC77#32)))

/-- The log-probabilities. -/
def logProb (a0 : FVec F S8192x128 .f32) (t : FVec F S8192 .f32) : FVec F S8192x8192 .f32 :=
  subf (shifted a0 t) (broadcastInDim S8192x8192 ![0, 1] bcast_S8192x1_S8192x8192_0_1 (logDenom a0 t))

/-- One where the two rows carry the same label, zero elsewhere. -/
def sameLabel (a1 : IVec S8192 32) : FVec F S8192x8192 .f32 :=
  uitofp .f32 (cmpi .eq (broadcastInDim S8192x8192 ![0, 1] bcast_S8192x1_S8192x8192_0_1 (broadcastInDim S8192x1 ![0] bcast_S8192_S8192x1_0 a1))
    (broadcastInDim S8192x8192 ![0, 1] bcast_S1x8192_S8192x8192_0_1 (broadcastInDim S1x8192 ![1] bcast_S8192_S1x8192_1 a1)))

/-- One off the diagonal, zero on it. -/
def offDiag : FVec F S8192x8192 .f32 :=
  subf (broadcastInDim S8192x8192 ![] bcast_S_S8192x8192 (constant S_ .f32 0x3F800000#32))
    (uitofp .f32 (cmpi .eq (addi (iotaInDim S8192x8192 32 0) (broadcastInDim S8192x8192 ![] bcast_S_S8192x8192 (constantI S_ 32 0#32)))
      (iotaInDim S8192x8192 32 1)))

/-- The mask of positives: same label, another row. -/
def posMask (a1 : IVec S8192 32) : FVec F S8192x8192 .f32 := mulf (sameLabel (F := F) a1) offDiag

/-- The number of positives of each row. -/
def posCount (a1 : IVec S8192 32) : FVec F S8192 .f32 := (Host.reduceAdd (posMask (F := F) a1) (constant S_ .f32 0x00000000#32) reducesTo_S8192x8192_S8192_d1 h_S_)

/-- Whether a row has a positive. -/
def hasPos (a1 : IVec S8192 32) : IVec S8192 1 :=
  cmpf .ogt (posCount (F := F) a1) (broadcastInDim S8192 ![] bcast_S_S8192 (constant S_ .f32 0x00000000#32))

/-- The masked sum of log-probabilities of each row. -/
def numer (a0 : FVec F S8192x128 .f32) (a1 : IVec S8192 32) (t : FVec F S8192 .f32) : FVec F S8192 .f32 :=
  (Host.reduceAdd (mulf (posMask a1) (logProb a0 t)) (constant S_ .f32 0x00000000#32) reducesTo_S8192x8192_S8192_d1 h_S_)

/-- The loss of each row before the selection. -/
def rowLoss (a0 : FVec F S8192x128 .f32) (a1 : IVec S8192 32) (t : FVec F S8192 .f32) : FVec F S8192 .f32 :=
  Host.divf (mulf (Host.negf (Host.divf (broadcastInDim S8192 ![] bcast_S_S8192 (constant S_ .f32 0x3D8F5C29#32)) t)) (numer a0 a1 t))
    (addf (posCount a1) (broadcastInDim S8192 ![] bcast_S_S8192 (constant S_ .f32 0x322BCC77#32)))

/-- The number of rows that have a positive. -/
def nValid (a1 : IVec S8192 32) : FVec F S_ .f32 := (Host.reduceAdd (uitofp .f32 (hasPos (F := F) a1)) (constant S_ .f32 0x00000000#32) reducesTo_S8192_S_d0 h_S_)

/-- The sum of the selected row losses. -/
def total (a0 : FVec F S8192x128 .f32) (a1 : IVec S8192 32) (t : FVec F S8192 .f32) : FVec F S_ .f32 :=
  (Host.reduceAdd (select (hasPos (F := F) a1) (rowLoss a0 a1 t) (broadcastInDim S8192 ![] bcast_S_S8192 (constant S_ .f32 0x00000000#32))) (constant S_ .f32 0x00000000#32) reducesTo_S8192_S_d0 h_S_)

/-- The result over the temperatures. -/
def outOf (a0 : FVec F S8192x128 .f32) (a1 : IVec S8192 32) (t : FVec F S8192 .f32) : FVec F S_ .f32 :=
  select (cmpf .ogt (nValid (F := F) a1) (constant S_ .f32 0x00000000#32))
    (Host.divf (total a0 a1 t) (maximumf (nValid a1) (constant S_ .f32 0x3F800000#32)))
    (constant S_ .f32 0x00000000#32)

/-- The reference's result of its two arguments. -/
def out (a0 : FVec F S8192x128 .f32) (a1 : IVec S8192 32) : FVec F S_ .f32 := outOf a0 a1 (temps a1)

/-! ## The fold at the result and at the arguments -/

attribute [local irreducible] Host.reduce Host.reduceAdd Host.gather in
theorem out_eq (V : Valuation τ sig (Elt F)) :
    after ops V (main_v58 : DevRef τ sig) = out (F := F) (V (main_arg0 : DevRef τ sig)) (V (main_arg1 : DevRef τ sig)) := by
  after_results_simp
  rfl

theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

/-- From any memory with zero counters every weakly fair execution of @main terminates with the result
    buffer at `out` of the argument arrays and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v58) = out (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v58).trans (out_eq _), (h c main_arg0).trans (arg0_eq _), (h c main_arg1).trans (arg1_eq _)⟩)
    (run_all m ρ)

end Cert.ReferenceIdeal.RefValue

end
-- ==== Proof.RefFrame.lean ====
/- The reference's frame: its run with the result dropped. -/
import proofs.«149726_j26061861552544_1_alg».proof.Defs
import proofs.«149726_j26061861552544_1_alg».proof.Proof.Gen.Pre_finite_inputs
import proofs.«149726_j26061861552544_1_alg».proof.Proof.RefStages

noncomputable section

namespace Cert.ReferenceIdeal.RefValue

open Idealize.ShloMosaic Idealize.SL.Sem

/-- Every weakly fair execution of the reference terminates without a fault and leaves its two argument
    arrays as they were: the run's statement without its first conjunct. -/
theorem frame_ri : Cert.frame_ReferenceIdeal (hReferenceIdeal := Cert.ReferenceIdeal.Gen.facts)
    (hPre_finite_inputs := Cert.Pre_finite_inputs.Gen.facts) :=
  fun m ρ _ => (θ_run (Cert.ReferenceIdeal.defs (F := Ideal)) _ _).mono (fun _ h c => (h c).2)
    (Cert.ReferenceIdeal.RefValue.run (F := Ideal) m ρ)

end Cert.ReferenceIdeal.RefValue

end
-- ==== Proof.RefLayout.lean ====
/- The reference's layout operations read at an index: a vector made a column and spread along the
   rows, a vector made a row and spread down the columns, the transposed embeddings, and the index that a
   row-wise sum inserts, and a vector's indices as its row numbers. -/
import proofs.«149726_j26061861552544_1_alg».proof.ReferenceIdeal
import Idealize.ShloMosaic.Lib.Pipeline.Value
import Idealize.ShloMosaic.Lib.ValueLayout
import Idealize.ShloMosaic.Lib.IdealHost
import Idealize.ShloMosaic.PureOps.Reduce

namespace Cert.ReferenceIdeal.RefValue

open Cert.ReferenceIdeal Idealize.ShloMosaic Idealize.ShloMosaic.ValueIdx
open scoped BigOperators

variable {α : Type}

/-- A vector as a column: entry `(r, 0)` is entry `r`. -/
theorem col_apply (h : S8192.BroadcastsInDim S8192x1 (![0] : Fin 1 → Fin S8192x1.rank)) (v : S8192.Idx → α)
    (r : Fin 8192) (u : Fin 1) :
    broadcastInDim S8192x1 ![0] h v (ix2 r u) = v (ix1 r) :=
  broadcastInDim_apply _ h v _ _ fun a => match a with | ⟨0, _⟩ => rfl

/-- A column spread along the rows: entry `(r, c)` is the column's entry `(r, 0)`. -/
theorem spreadCol_apply (h : S8192x1.BroadcastsInDim S8192x8192 (![0, 1] : Fin 2 → Fin S8192x8192.rank))
    (y : S8192x1.Idx → α) (r c : Fin 8192) :
    broadcastInDim S8192x8192 ![0, 1] h y (ix2 r c) = y (ix2 r (0 : Fin 1)) :=
  broadcastInDim_apply _ h y _ _ fun a => match a with | ⟨0, _⟩ => rfl | ⟨1, _⟩ => rfl

/-- A vector as a row: entry `(0, c)` is entry `c`. -/
theorem row_apply (h : S8192.BroadcastsInDim S1x8192 (![1] : Fin 1 → Fin S1x8192.rank)) (v : S8192.Idx → α)
    (u : Fin 1) (c : Fin 8192) :
    broadcastInDim S1x8192 ![1] h v (ix2 u c) = v (ix1 c) :=
  broadcastInDim_apply _ h v _ _ fun a => match a with | ⟨0, _⟩ => rfl

/-- A row spread down the columns: entry `(r, c)` is the row's entry `(0, c)`. -/
theorem spreadRow_apply (h : S1x8192.BroadcastsInDim S8192x8192 (![0, 1] : Fin 2 → Fin S8192x8192.rank))
    (y : S1x8192.Idx → α) (r c : Fin 8192) :
    broadcastInDim S8192x8192 ![0, 1] h y (ix2 r c) = y (ix2 (0 : Fin 1) c) :=
  broadcastInDim_apply _ h y _ _ fun a => match a with | ⟨0, _⟩ => rfl | ⟨1, _⟩ => rfl

/-- The transposed embeddings: entry `(k, c)` is entry `(c, k)`. -/
theorem transposed_apply (h : S8192x128.Transposes [1, 0] S128x8192) (x : S8192x128.Idx → α) (k : Fin 128) (c : Fin 8192) :
    transpose S128x8192 [1, 0] x h (ix2 k c) = x (ix2 c k) :=
  transpose_ix2_apply x h k c

/-- The index a row-wise reduction inserts: column `k` of row `r`. -/
theorem lift_row (h : S8192x8192.Reduces [1] S8192) (r : Fin 8192) (k : Fin 8192) :
    h.lift (ix1 r) k = ix2 r k :=
  funext fun a => match a with | ⟨0, _⟩ => Fin.ext rfl | ⟨1, _⟩ => Fin.ext rfl

theorem reduces_row : S8192x8192.Reduces [1] S8192 := by decide

/-- A vector's indices are its row numbers. -/
def vecEquiv : S8192.Idx ≃ Fin 8192 where
  toFun i := i 0
  invFun := ix1
  left_inv i := (eq_ix1 i).symm
  right_inv _ := rfl

/-- A sum over a vector's indices is the sum over its row numbers. -/
theorem sum_vec {M : Type} [AddCommMonoid M] (f : S8192.Idx → M) : ∑ i, f i = ∑ r : Fin 8192, f (ix1 r) :=
  (Equiv.sum_comp vecEquiv.symm f).symm

end Cert.ReferenceIdeal.RefValue
-- ==== Proof.RefLogits.lean ====
/- The reference's logits at a pair of rows: the inner product of the two embeddings (the product with
   the transposed embeddings, its one contraction index re-indexed by the column number) over the row's
   temperature. -/
import proofs.«149726_j26061861552544_1_alg».proof.Proof.RefStages
import proofs.«149726_j26061861552544_1_alg».proof.Proof.RefLayout
import proofs.«149726_j26061861552544_1_alg».proof.Proof.Spec

noncomputable section

namespace Cert.ReferenceIdeal.RefValue

open Cert.ReferenceIdeal Cert.ReferenceIdeal.Gen Idealize.ShloMosaic Idealize.ShloMosaic.ValueIdx
open scoped BigOperators

/-- The product's dimension numbers: rows by columns, one contracted axis of 128. -/
abbrev embDot : DotDims S8192x128 S128x8192 S8192x8192 := dot_S8192x128_S128x8192_S8192x8192_1_0_0_1_n_n

/-- The left operand's index at `(r, c)` and contraction position `k` is `(r, k)`. -/
theorem embDot_lhs (r c : Fin 8192) (k : Fin 128) :
    embDot.lhsIdx (ix2 r c) ((contrEquiv1 embDot 128 rfl rfl).symm k) = ix2 r k :=
  funext fun a => match a with
    | ⟨0, _⟩ => Fin.ext rfl
    | ⟨1, _⟩ => Fin.ext ((embDot.lhsIdx_val_of_single rfl _ _).trans (contrEquiv1_symm_val embDot 128 rfl rfl k))

/-- The right operand's index at `(r, c)` and contraction position `k` is `(k, c)`. -/
theorem embDot_rhs (r c : Fin 8192) (k : Fin 128) :
    embDot.rhsIdx (ix2 r c) ((contrEquiv1 embDot 128 rfl rfl).symm k) = ix2 k c :=
  funext fun a => match a with
    | ⟨0, _⟩ => Fin.ext ((embDot.rhsIdx_val_of_single rfl _ _).trans (contrEquiv1_symm_val embDot 128 rfl rfl k))
    | ⟨1, _⟩ => Fin.ext rfl

/-- The product at `(r, c)`: the sum over the 128 contracted positions. -/
theorem embDot_apply (x : FVec Ideal S8192x128 .f32) (y : FVec Ideal S128x8192 .f32) (r c : Fin 8192) :
    Host.dotGeneral embDot none x y (ix2 r c) = ∑ k : Fin 128, x (ix2 r k) * y (ix2 k c) := by
  refine (Ideal.dotGeneral_apply embDot none .single x y (ix2 r c)).trans ?_
  rw [← Equiv.sum_comp (contrEquiv1 embDot 128 rfl rfl).symm]
  refine Finset.sum_congr rfl fun k _ => ?_
  rw [embDot_lhs, embDot_rhs]

/-- The logits at `(r, c)` are the specification's. -/
theorem logits_apply (x : FVec Ideal S8192x128 .f32) (T : FVec Ideal S8192 .f32) (r c : Fin 8192) :
    logits (F := Ideal) x T (ix2 r c) = Cert.SupCon.logit x T r c := by
  unfold logits Cert.SupCon.logit Cert.SupCon.sim
  rw [hostDivf_apply, embDot_apply, spreadCol_apply, col_apply]
  refine congrArg (fun s => Ideal.div s (T (ix1 r))) (Finset.sum_congr rfl fun k _ => ?_)
  rw [transposed_apply]

end Cert.ReferenceIdeal.RefValue

end
-- ==== Proof.RefReduce.lean ====
/- The reference's reductions read at an index at the exact values: a row-wise sum and a whole-vector
   sum from the zero word are plain sums over the column, respectively row, numbers; a row-wise maximum from
   minus infinity is the fold of `max` over the columns; and the host's pointwise functions at an entry. -/
import proofs.«149726_j26061861552544_1_alg».proof.Proof.RefLayout
import Idealize.ShloMosaic.PureOps.Ideal.Laws

noncomputable section

namespace Cert.ReferenceIdeal.RefValue

open Cert.ReferenceIdeal Idealize.ShloMosaic Idealize.ShloMosaic.ValueIdx
open scoped BigOperators

theorem hostExp_apply {s : Shape} {φ : FTy} (v : FVec Ideal s φ) (i : s.Idx) : Host.exp v i = Ideal.exp (v i) := rfl
theorem hostLog_apply {s : Shape} {φ : FTy} (v : FVec Ideal s φ) (i : s.Idx) : Host.log v i = Ideal.log (v i) := rfl
theorem hostNegf_apply {s : Shape} {φ : FTy} (v : FVec Ideal s φ) (i : s.Idx) : Host.negf v i = -(v i) := rfl

/-- A row-wise sum from the zero word: the sum of the row's entries. -/
theorem rowSum_apply (v : FVec Ideal S8192x8192 .f32) (h' : S8192x8192.ReducesTo [1] S8192) (hu : 0 < S_.numel)
    (r : Fin 8192) :
    Host.reduceAdd v (constant (F := Ideal) S_ .f32 0x00000000#32) h' hu (ix1 r) = ∑ c : Fin 8192, v (ix2 r c) := by
  rw [hostReduceAdd_apply, Ideal.hostReduceAdd_single h' reduces_row, constant_apply, Ideal.ofBits_zero_f32, zero_add]
  show ∑ c : Fin 8192, v (reduces_row.lift (ix1 r) c) = _
  simp only [lift_row]

/-- A whole-vector sum from the zero word: the sum of the entries. -/
theorem vecSum_apply (v : FVec Ideal S8192 .f32) (h' : S8192.ReducesTo [0] S_) (hu : 0 < S_.numel) (j : S_.Idx) :
    Host.reduceAdd v (constant (F := Ideal) S_ .f32 0x00000000#32) h' hu j = ∑ r : Fin 8192, v (ix1 r) := by
  rw [hostReduceAdd_apply, Ideal.hostReduceAdd_total h' (fun b => b.elim0), constant_apply, Ideal.ofBits_zero_f32, zero_add,
    sum_vec]

/-- A row-wise maximum from a given word: the fold of `max` over the row's entries. -/
theorem rowFoldMax_apply (v : FVec Ideal S8192x8192 .f32) (w : BitVec 32) (h' : S8192x8192.ReducesTo [1] S8192)
    (hu : 0 < S_.numel) (r : Fin 8192) :
    Host.reduce FloatOps.maximumf v (constant (F := Ideal) S_ .f32 w) h' hu (ix1 r)
      = (Finset.univ : Finset (Fin 8192)).fold max (Ideal.ofBits .f32 w) (fun c => v (ix2 r c)) := by
  refine (Host.reduce_eq_fold_single (FloatOps.maximumf (F := Ideal) (φ := .f32)) v (constant (F := Ideal) S_ .f32 w) h'
    reduces_row hu (ix1 r)).trans ?_
  have e : (fun c : Fin 8192 => v (reduces_row.lift (ix1 r) c)) = fun c => v (ix2 r c) :=
    funext fun c => by rw [lift_row]
  exact congrArg (fun f => (Finset.univ : Finset (Fin 8192)).fold max (Ideal.ofBits .f32 w) f) e

end Cert.ReferenceIdeal.RefValue

end
-- ==== Proof.RefSoftmax.lean ====
/- The reference's softmax stages at an index: the row maximum, the shifted logits, the logarithm of the
   row's normaliser and the log-probabilities are the specification's. -/
import proofs.«149726_j26061861552544_1_alg».proof.Proof.RefLogits
import proofs.«149726_j26061861552544_1_alg».proof.Proof.RefReduce

noncomputable section

namespace Cert.ReferenceIdeal.RefValue

open Cert.ReferenceIdeal Cert.ReferenceIdeal.Gen Idealize.ShloMosaic Idealize.ShloMosaic.ValueIdx
open scoped BigOperators

theorem rowMax_apply (x : FVec Ideal S8192x128 .f32) (T : FVec Ideal S8192 .f32) (r : Fin 8192) :
    rowMax (F := Ideal) x T (ix1 r) = Cert.SupCon.rowMax x T r := by
  unfold rowMax Cert.SupCon.rowMax
  refine (rowFoldMax_apply _ _ _ _ r).trans ?_
  exact congrArg (fun f => (Finset.univ : Finset (Fin 8192)).fold max (Ideal.ofBits .f32 0xFF800000#32) f)
    (funext fun c => logits_apply x T r c)

theorem shifted_apply (x : FVec Ideal S8192x128 .f32) (T : FVec Ideal S8192 .f32) (r c : Fin 8192) :
    shifted (F := Ideal) x T (ix2 r c) = Cert.SupCon.z x T r c := by
  unfold shifted Cert.SupCon.z
  rw [subf_apply, spreadCol_apply, col_apply, logits_apply, rowMax_apply]

theorem logDenom_apply (x : FVec Ideal S8192x128 .f32) (T : FVec Ideal S8192 .f32) (r : Fin 8192) (u : Fin 1) :
    logDenom (F := Ideal) x T (ix2 r u) = Ideal.log (Cert.SupCon.denom x T r) := by
  unfold logDenom Cert.SupCon.denom
  rw [hostLog_apply, addf_apply, col_apply, rowSum_apply, broadcastInDim_scalar_apply, constant_apply]
  refine congrArg (fun s => Ideal.log (s + Ideal.ofBits .f32 0x322BCC77#32)) (Finset.sum_congr rfl fun c _ => ?_)
  rw [hostExp_apply, shifted_apply]

theorem logProb_apply (x : FVec Ideal S8192x128 .f32) (T : FVec Ideal S8192 .f32) (r c : Fin 8192) :
    logProb (F := Ideal) x T (ix2 r c) = Cert.SupCon.logp x T r c := by
  unfold logProb Cert.SupCon.logp
  rw [subf_apply, spreadCol_apply, shifted_apply, logDenom_apply]

end Cert.ReferenceIdeal.RefValue

end
-- ==== Proof.RefBits.lean ====
/- One-bit conditions at the exact values: a decided bit converted to a float is one or zero, a selection on
   a decided bit is an `if`, a float comparison "greater" is the order's, and row numbers below 8192 are equal
   exactly when their 32-bit words are. -/
import Idealize.ShloMosaic.PureOps.Ideal
import Idealize.ShloMosaic.Lib.IdealHost

namespace Cert.ReferenceIdeal.RefValue

open Idealize.ShloMosaic Idealize.ShloMosaic.ValueIdx

/-- A bit converted unsigned: one for the set bit, zero for the clear one. -/
theorem uitofp_ofBool (b : Bool) :
    FloatOps.uitofp (F := Ideal) .f32 (BitVec.ofBool b) = if b = true then (1 : EReal) else 0 := by
  cases b
  · show (((0 : ℕ) : ℝ) : EReal) = _
    simp
  · show (((1 : ℕ) : ℝ) : EReal) = _
    simp

/-- Equality of two words, converted: one where they are equal. -/
theorem uitofp_cmpi_eq {w : ℕ} (a b : BitVec w) :
    FloatOps.uitofp (F := Ideal) .f32 (IntOp.cmpi .eq a b) = if a = b then (1 : EReal) else 0 := by
  show FloatOps.uitofp (F := Ideal) .f32 (BitVec.ofBool (a == b)) = _
  rw [uitofp_ofBool]
  simp only [beq_iff_eq]

/-- "Greater" on the exact values is the order's, as a decided bit. -/
theorem cmpf_ogt (x y : EReal) : FloatOps.cmpf (F := Ideal) (φ := .f32) .ogt x y = BitVec.ofBool (decide (y < x)) := rfl

/-- A decided bit converted: one where the proposition holds. -/
theorem uitofp_decide (p : Prop) [Decidable p] :
    FloatOps.uitofp (F := Ideal) .f32 (BitVec.ofBool (decide p)) = if p then (1 : EReal) else 0 := by
  rw [uitofp_ofBool]
  simp only [decide_eq_true_eq]

/-- A selection on a decided bit is the `if`. -/
theorem select_decide {α : Type} (p : Prop) [Decidable p] (a b : α) :
    Scalar.select (BitVec.ofBool (decide p)) a b = if p then a else b := by
  by_cases h : p
  · rw [if_pos h, decide_eq_true h]; exact select_one a b
  · rw [if_neg h, decide_eq_false h]; exact select_zero a b

/-- Two row numbers are equal exactly when their words are. -/
theorem ofNat32_inj (r c : Fin 8192) : BitVec.ofNat 32 r.val = BitVec.ofNat 32 c.val ↔ r = c := by
  constructor
  · intro h
    have e := congrArg BitVec.toNat h
    simp only [BitVec.toNat_ofNat] at e
    have hr := r.isLt
    have hc := c.isLt
    rw [Nat.mod_eq_of_lt (by omega), Nat.mod_eq_of_lt (by omega)] at e
    exact Fin.ext e
  · rintro rfl; rfl

/-- One minus the diagonal's indicator is the indicator of "off the diagonal". -/
theorem one_sub_ite (p : Prop) [Decidable p] : (1 : EReal) - (if p then 1 else 0) = if p then 0 else 1 := by
  by_cases h : p
  · rw [if_pos h, if_pos h, ← EReal.coe_one, ← EReal.coe_sub, sub_self, EReal.coe_zero]
  · rw [if_neg h, if_neg h, sub_zero]

end Cert.ReferenceIdeal.RefValue
-- ==== Proof.RefMask.lean ====
/- The reference's masks at an index: "same label" and "off the diagonal" are the specification's
   indicators, their product is the positives mask, its row sum the number of positives, and a row has a
   positive exactly when that number is above zero. -/
import proofs.«149726_j26061861552544_1_alg».proof.Proof.RefStages
import proofs.«149726_j26061861552544_1_alg».proof.Proof.RefReduce
import proofs.«149726_j26061861552544_1_alg».proof.Proof.RefBits
import proofs.«149726_j26061861552544_1_alg».proof.Proof.Spec

noncomputable section

namespace Cert.ReferenceIdeal.RefValue

open Cert.ReferenceIdeal Cert.ReferenceIdeal.Gen Idealize.ShloMosaic Idealize.ShloMosaic.ValueIdx
open scoped BigOperators

theorem uitofp_vec_apply {s : Shape} {w : ℕ} (v : IVec s w) (i : s.Idx) :
    (uitofp .f32 v : FVec Ideal s .f32) i = FloatOps.uitofp (F := Ideal) .f32 (v i) := rfl
theorem cmpi_vec_apply {s : Shape} {w : ℕ} (p : CmpIPredicate) (a b : IVec s w) (i : s.Idx) :
    cmpi p a b i = IntOp.cmpi p (a i) (b i) := rfl
theorem addi_vec_apply {s : Shape} {w : ℕ} (a b : IVec s w) (i : s.Idx) : addi a b i = a i + b i := rfl
theorem constantI_apply {s : Shape} {w : ℕ} (b : BitVec w) (i : s.Idx) : constantI s w b i = b := rfl

theorem sameLabel_apply (lab : IVec S8192 32) (r c : Fin 8192) :
    sameLabel (F := Ideal) lab (ix2 r c) = Cert.SupCon.same lab r c := by
  unfold sameLabel Cert.SupCon.same
  rw [uitofp_vec_apply, cmpi_vec_apply, spreadCol_apply, col_apply, spreadRow_apply, row_apply, uitofp_cmpi_eq]

theorem offDiag_apply (r c : Fin 8192) : offDiag (F := Ideal) (ix2 r c) = Cert.SupCon.notSelf r c := by
  unfold offDiag Cert.SupCon.notSelf
  rw [subf_apply, broadcastInDim_scalar_apply, constant_apply, Ideal.ofBits_one_f32, uitofp_vec_apply, cmpi_vec_apply,
    addi_vec_apply, iotaInDim_apply, iotaInDim_apply, broadcastInDim_scalar_apply, constantI_apply, uitofp_cmpi_eq]
  show (1 : EReal) - (if BitVec.ofNat 32 r.val + 0#32 = BitVec.ofNat 32 c.val then 1 else 0) = _
  rw [BitVec.add_zero, one_sub_ite]
  simp only [ofNat32_inj]

theorem posMask_apply (lab : IVec S8192 32) (r c : Fin 8192) :
    posMask (F := Ideal) lab (ix2 r c) = Cert.SupCon.pmask lab r c := by
  unfold posMask Cert.SupCon.pmask
  rw [mulf_apply, sameLabel_apply, offDiag_apply]

theorem posCount_apply (lab : IVec S8192 32) (r : Fin 8192) :
    posCount (F := Ideal) lab (ix1 r) = Cert.SupCon.pcount lab r := by
  unfold posCount Cert.SupCon.pcount
  rw [rowSum_apply]
  exact Finset.sum_congr rfl fun c _ => posMask_apply lab r c

theorem hasPos_apply (lab : IVec S8192 32) (r : Fin 8192) :
    hasPos (F := Ideal) lab (ix1 r) = BitVec.ofBool (decide (Ideal.ofBits .f32 0x00000000#32 < Cert.SupCon.pcount lab r)) := by
  unfold hasPos
  rw [cmpf_apply, cmpf_ogt, posCount_apply, broadcastInDim_scalar_apply, constant_apply]

end Cert.ReferenceIdeal.RefValue

end
-- ==== Proof.RefLoss.lean ====
/- The reference's losses: the masked sum of log-probabilities, the row loss and its selection, the two
   whole-vector sums and the final selection are the specification's, so the reference's result is the
   specification's at the gathered temperatures. -/
import proofs.«149726_j26061861552544_1_alg».proof.Proof.RefSoftmax
import proofs.«149726_j26061861552544_1_alg».proof.Proof.RefMask

noncomputable section

namespace Cert.ReferenceIdeal.RefValue

open Cert.ReferenceIdeal Cert.ReferenceIdeal.Gen Idealize.ShloMosaic Idealize.ShloMosaic.ValueIdx
open scoped BigOperators

theorem numer_apply (x : FVec Ideal S8192x128 .f32) (lab : IVec S8192 32) (T : FVec Ideal S8192 .f32) (r : Fin 8192) :
    numer (F := Ideal) x lab T (ix1 r) = Cert.SupCon.numer x lab T r := by
  unfold numer Cert.SupCon.numer
  rw [rowSum_apply]
  refine Finset.sum_congr rfl fun c _ => ?_
  rw [mulf_apply, posMask_apply, logProb_apply]

/-- The row loss before the selection: the negated constant over the temperature, times the masked sum, over
    the number of positives plus the small constant. -/
theorem rowLoss_apply (x : FVec Ideal S8192x128 .f32) (lab : IVec S8192 32) (T : FVec Ideal S8192 .f32) (r : Fin 8192) :
    rowLoss (F := Ideal) x lab T (ix1 r)
      = Ideal.div ((Ideal.ofBits .f32 0x00000000#32 - Ideal.div (Ideal.ofBits .f32 0x3D8F5C29#32) (T (ix1 r))) * Cert.SupCon.numer x lab T r)
          (Cert.SupCon.pcount lab r + Ideal.ofBits .f32 0x322BCC77#32) := by
  unfold rowLoss
  rw [hostDivf_apply, mulf_apply, hostNegf_apply, hostDivf_apply, addf_apply, numer_apply, posCount_apply,
    broadcastInDim_scalar_apply, broadcastInDim_scalar_apply, constant_apply, constant_apply, Ideal.ofBits_zero_f32, zero_sub]

theorem nValid_apply (lab : IVec S8192 32) (j : S_.Idx) : nValid (F := Ideal) lab j = Cert.SupCon.nvalid lab := by
  unfold nValid Cert.SupCon.nvalid
  rw [vecSum_apply]
  refine Finset.sum_congr rfl fun r _ => ?_
  unfold Cert.SupCon.validRow
  rw [uitofp_vec_apply, hasPos_apply, uitofp_decide]

theorem total_apply (x : FVec Ideal S8192x128 .f32) (lab : IVec S8192 32) (T : FVec Ideal S8192 .f32) (j : S_.Idx) :
    total (F := Ideal) x lab T j = Cert.SupCon.total x lab T := by
  unfold total Cert.SupCon.total
  rw [vecSum_apply]
  refine Finset.sum_congr rfl fun r _ => ?_
  unfold Cert.SupCon.lossRow
  rw [select_apply, hasPos_apply, select_decide, rowLoss_apply, broadcastInDim_scalar_apply, constant_apply]

/-- The reference's result over any temperatures is the specification's. -/
theorem outOf_eq (x : FVec Ideal S8192x128 .f32) (lab : IVec S8192 32) (T : FVec Ideal S8192 .f32) :
    outOf (F := Ideal) x lab T = fun _ => Cert.SupCon.result x lab T := by
  funext j
  unfold outOf Cert.SupCon.result
  rw [select_apply, cmpf_apply, cmpf_ogt, select_decide, hostDivf_apply, maximumf_apply, nValid_apply, total_apply,
    constant_apply, constant_apply]

/-- The reference's result is the specification's at the gathered temperatures. -/
theorem out_eq_spec (x : FVec Ideal S8192x128 .f32) (lab : IVec S8192 32) :
    out (F := Ideal) x lab = fun _ => Cert.SupCon.result x lab (temps (F := Ideal) lab) :=
  outOf_eq x lab _

open Idealize.SL.Sem in
/-- The reference's run with its result named by the specification: every weakly fair execution ends with the
    result buffer at the specification's value of the two argument arrays and the gathered temperatures, the
    arguments unchanged. -/
theorem run_spec (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v58)
          = (fun _ => Cert.SupCon.result (m ((c.tc : Thread nD τ).loc main_arg0)) (m ((c.tc : Thread nD τ).loc main_arg1))
              (temps (F := Ideal) (m ((c.tc : Thread nD τ).loc main_arg1))))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run (defs (F := Ideal)) _ _).mono (fun _ h c => ⟨(h c).1.trans (out_eq_spec _ _), (h c).2⟩) (run (F := Ideal) m ρ)

end Cert.ReferenceIdeal.RefValue

end
-- ==== Proof.lean ====
/-
  The certificate of the class-balanced supervised-contrastive loss kernel against its whole-array reference.

  Both programs compute, from embeddings x (8192 rows of 128 numbers) and labels, the per-row temperature T gathered
  from a three-entry table at the row's label, then for each row r the similarities x_r · x_c over T_r, their
  log-softmax over c (with the small constant added to the sum of exponentials), the mask of the other rows c that
  carry r's label, the masked sum of log-probabilities scaled by -(0.07 / T_r) and divided by the count plus the small
  constant, kept only for rows that have a positive; the result is the sum of the kept losses over the number of such
  rows (at least one), or zero when there is none. The kernel does this 128 rows at a time on a grid of 64 points and
  leaves the two final sums to the host; the reference does it on whole 8192 x 8192 arrays. At the ideal values
  (extended reals, exact operations, a change of float format the identity) every operation of one side is the
  operation of the other on the same entries: a matrix product into a zero accumulator is the host's contraction, a
  lane maximum or sum is the host's reduction over the same row, a 0/1 conversion of a comparison bit is the same on
  both sides, 1 - [r = c] is [r ≠ c], and 0 - a is -a. So both results are the one function `Cert.SupCon.result` of the
  arguments, with no use of the inputs' finiteness.

  The three frames: each kernel program runs as host operations, the pipelined region (two of whose windows read the
  one embedding array, whose share is dealt between them in halves), host operations, and writes neither argument;
  the reference is a line of host operations that writes neither argument.
-/
import proofs.«149726_j26061861552544_1_alg».proof.Defs
import proofs.«149726_j26061861552544_1_alg».proof.Proof.Gen.Kernel
import proofs.«149726_j26061861552544_1_alg».proof.Proof.Gen.KernelIdeal
import proofs.«149726_j26061861552544_1_alg».proof.Proof.Gen.ReferenceIdeal
import proofs.«149726_j26061861552544_1_alg».proof.Proof.Gen.Pre_finite_inputs
import proofs.«149726_j26061861552544_1_alg».proof.Proof.BitsRun
import proofs.«149726_j26061861552544_1_alg».proof.Proof.KernFinal
import proofs.«149726_j26061861552544_1_alg».proof.Proof.RefFrame
import proofs.«149726_j26061861552544_1_alg».proof.Proof.RefLoss

noncomputable section

namespace Cert.Proof

open Idealize.ShloMosaic Idealize.ShloMosaic.TcCoe Idealize.SL.Sem

/-- The kernel program as printed runs and leaves its arguments unchanged. -/
theorem frame_p : Cert.frame_Kernel (hKernel := Cert.Kernel.Gen.facts) (hPre_finite_inputs := Cert.Pre_finite_inputs.Gen.facts) :=
  fun m ρ _ => (θ_run Cert.Kernel.defs _ _).mono (fun _ h c => (h c).2) (Cert.Kernel.Hand.run_main (F := Bits) m ρ)

/-- So does its idealization. -/
theorem frame_pi : Cert.frame_KernelIdeal (hKernelIdeal := Cert.KernelIdeal.Gen.facts) (hPre_finite_inputs := Cert.Pre_finite_inputs.Gen.facts) :=
  fun m ρ _ => (θ_run Cert.KernelIdeal.defs _ _).mono (fun _ h c => (h c).2) (Cert.KernelIdeal.Hand.run_main (F := Ideal) m ρ)

/-- The two programs gather the temperature by the same operations of the labels. -/
theorem temps_eq (lab : IVec Cert.KernelIdeal.S8192 32) :
    Cert.KernelIdeal.Hand.temps (F := Ideal) lab = Cert.ReferenceIdeal.RefValue.temps (F := Ideal) lab := rfl

/-- At the ideal values both programs end with the specification's result of arguments that agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelIdeal.Hand.run_value m ρ, ?_⟩
  refine (θ_run Cert.ReferenceIdeal.defs _ _).mono (fun _ h c => ⟨(h c).1.trans ?_, (h c).2⟩)
    (Cert.ReferenceIdeal.RefValue.run (F := Ideal) m' ρ')
  rw [(hagree c).1, (hagree c).2, Cert.ReferenceIdeal.RefValue.out_eq_spec]
  rfl

theorem claim : Cert.Claim := ⟨Cert.Kernel.Gen.facts, Cert.KernelIdeal.Gen.facts, Cert.ReferenceIdeal.Gen.facts, Cert.Pre_finite_inputs.Gen.facts,
  frame_p, frame_pi, Cert.ReferenceIdeal.RefValue.frame_ri, trivial, algebraic⟩

end Cert.Proof

end
